-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S10x1 : Shape := ⟨2, ![10, 1]⟩
abbrev S1x10 : Shape := ⟨2, ![1, 10]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S10x1 : S_.BroadcastsInDim S10x1 (![] : Fin 0 → Fin S10x1.rank)
  reducesTo_S10x1_S_d0_1 : S10x1.ReducesTo [0, 1] S_
  bcast_S_S1x10 : S_.BroadcastsInDim S1x10 (![] : Fin 0 → Fin S1x10.rank)
  reducesTo_S1x10_S_d0_1 : S1x10.ReducesTo [0, 1] S_

variable [Facts]

def fn {F : FTy → Type} [FloatOps F] (main_arg0 : FVec F S16384x1 .f32) (main_arg1 : FVec F S10x1 .f32) (main_arg2 : FVec F S1x10 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S10x1 .f32 := Host.absf main_arg1
  let main_cst_0 : FVec F S_ .f32 := constant S_ .f32 0x7F800000#32
  let main_v5 : FVec F S10x1 .f32 := broadcastInDim S10x1 ![] bcast_S_S10x1 main_cst_0
  let main_v6 : IVec S10x1 1 := cmpf .olt main_v4 main_v5
  let main_c_1 : IVec S_ 1 := constantI S_ 1 1#1
  let main_v7 : IVec S_ 1 := (fun x v => Host.reduce IntOp.andi x v reducesTo_S10x1_S_d0_1 h_S_) main_v6 main_c_1
  let main_v8 : IVec S_ 1 := andi main_v3 main_v7
  let main_v9 : FVec F S1x10 .f32 := Host.absf main_arg2
  let main_cst_2 : FVec F S_ .f32 := constant S_ .f32 0x7F800000#32
  let main_v10 : FVec F S1x10 .f32 := broadcastInDim S1x10 ![] bcast_S_S1x10 main_cst_2
  let main_v11 : IVec S1x10 1 := cmpf .olt main_v9 main_v10
  let main_c_3 : IVec S_ 1 := constantI S_ 1 1#1
  let main_v12 : IVec S_ 1 := (fun x v => Host.reduce IntOp.andi x v reducesTo_S1x10_S_d0_1 h_S_) main_v11 main_c_3
  let main_v13 : IVec S_ 1 := andi main_v8 main_v12
  main_v13
-- ==== Kernel.lean ====
abbrev S16384x1 : Shape := ⟨2, ![16384, 1]⟩
abbrev S10x1 : Shape := ⟨2, ![10, 1]⟩
abbrev S1x10 : Shape := ⟨2, ![1, 10]⟩
abbrev S16384 : Shape := ⟨1, ![16384]⟩
abbrev S10 : Shape := ⟨1, ![10]⟩
abbrev S1024 : Shape := ⟨1, ![1024]⟩
abbrev S16 : Shape := ⟨1, ![16]⟩
abbrev S_ : Shape := ⟨0, ![]⟩
abbrev S1 : Shape := ⟨1, ![1]⟩

abbrev nBuf : Table → Nat
  | .hbm => 8
  | .local .scVector .vmem => 3
  | _ => 0

abbrev bufTy : (tb : Table) → Fin (nBuf tb) → BufTy
  | .hbm, ⟨0, _⟩ => ⟨S16384x1, .f32⟩
  | .hbm, ⟨1, _⟩ => ⟨S10x1, .f32⟩
  | .hbm, ⟨2, _⟩ => ⟨S1x10, .f32⟩
  | .hbm, ⟨3, _⟩ => ⟨S16384, .f32⟩
  | .hbm, ⟨4, _⟩ => ⟨S10, .f32⟩
  | .hbm, ⟨5, _⟩ => ⟨S10, .f32⟩
  | .hbm, ⟨6, _⟩ => ⟨S16384, .f32⟩
  | .hbm, ⟨7, _⟩ => ⟨S16384x1, .f32⟩
  | .local .scVector .vmem, ⟨0, _⟩ => ⟨S1024, .f32⟩
  | .local .scVector .vmem, ⟨1, _⟩ => ⟨S16, .f32⟩
  | .local .scVector .vmem, ⟨2, _⟩ => ⟨S16, .f32⟩
  | _, _ => ⟨S16384x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k0_t1_loop : Scf.Loop 32 :=
  let c0_i32_8 : BitVec 32 := 0#32
  let c64_i32 : BitVec 32 := 64#32
  let v78 : BitVec 32 := Scalar.addi c0_i32_8 c64_i32
  let c1_i32_9 : BitVec 32 := 1#32
  ⟨c0_i32_8, v78, c1_i32_9⟩
def k0_off2 (k0_t1 : Fin k0_t1_loop.trips) : Fin 1 → Nat :=
  let c0_i32_12 : BitVec 32 := 0#32
  let c0_i32_8 : BitVec 32 := 0#32
  let c1_i32_9 : BitVec 32 := 1#32
  let arg12 : BitVec 32 := Scf.iv c0_i32_8 c1_i32_9 k0_t1
  let c1_i32_11 : BitVec 32 := 1#32
  let v79 : BitVec 32 := Scalar.muli arg12 c1_i32_11
  let v80 : BitVec 32 := Scalar.addi c0_i32_12 v79
  let c16_i32 : BitVec 32 := 16#32
  let v81 : BitVec 32 := Scalar.muli v80 c16_i32
  let v82 : Index := Scalar.indexCast v81
  ![v82.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x1_S16384 : S16384x1.ShapeCasts S16384
  shapeCasts_S10x1_S10 : S10x1.ShapeCasts S10
  shapeCasts_S1x10_S10 : S1x10.ShapeCasts S10
  inb_S16_S10_0 : ∀ a, (![0] : Fin 1 → Nat) a + S10.size a ≤ S16.size a
  inb_S16_S16_0 : ∀ a, (![0] : Fin 1 → Nat) a + S16.size a ≤ S16.size a
  h_S16 : 0 < S16.numel
  shapeCasts_S16_S16 : S16.ShapeCasts S16
  slices_S16_o0_S1 : S16.Slices ![0] S1
  inpos_S1_p0 : ∀ a, (![0] : Fin 1 → Nat) a < S1.size a
  slices_S16_o6_S1 : S16.Slices ![6] S1
  slices_S16_o1_S1 : S16.Slices ![1] S1
  slices_S16_o7_S1 : S16.Slices ![7] S1
  slices_S16_o2_S1 : S16.Slices ![2] S1
  slices_S16_o8_S1 : S16.Slices ![8] S1
  slices_S16_o3_S1 : S16.Slices ![3] S1
  slices_S16_o9_S1 : S16.Slices ![9] S1
  slices_S16_o4_S1 : S16.Slices ![4] S1
  slices_S16_o5_S1 : S16.Slices ![5] S1
  shapeCasts_S16384_S16384x1 : S16384.ShapeCasts S16384x1
  hcc0_scratch3 : 0 + S_.numel ≤ 4
  hcc0_scratch4 : 1 + S_.numel ≤ 4
  hcc0_scratch5 : 2 + S_.numel ≤ 4
  hcc0_scoped0 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S16384.size a
  k0_t1_ok : k0_t1_loop.OK
  k0_off2_inb : ∀ k0_t1 : Fin k0_t1_loop.trips, ∀ a, (k0_off2 k0_t1) a + S16.size a ≤ S1024.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scoped0 : DmaSems sig S_ := SemArray.consecutive 3 S_ hcc0_scoped0

class Facts : Prop extends Facts₀ where

variable [Facts]
-- ==== ReferenceIdeal.lean ====
abbrev S16384x1 : Shape := ⟨2, ![16384, 1]⟩
abbrev S10x1 : Shape := ⟨2, ![10, 1]⟩
abbrev S1x10 : Shape := ⟨2, ![1, 10]⟩
abbrev S16384x10 : Shape := ⟨2, ![16384, 10]⟩
abbrev S16384x2 : Shape := ⟨2, ![16384, 2]⟩
abbrev S16384x3 : Shape := ⟨2, ![16384, 3]⟩
abbrev S16384x4 : Shape := ⟨2, ![16384, 4]⟩

abbrev nBuf : Space → Nat
  | .hbm => 12
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S10x1, .f32⟩
  | .hbm, ⟨2, _⟩ => ⟨S1x10, .f32⟩
  | .hbm, ⟨3, _⟩ => ⟨S1x10, .f32⟩
  | .hbm, ⟨4, _⟩ => ⟨S16384x10, .f32⟩
  | .hbm, ⟨5, _⟩ => ⟨S16384x2, .f32⟩
  | .hbm, ⟨6, _⟩ => ⟨S16384x3, .f32⟩
  | .hbm, ⟨7, _⟩ => ⟨S16384x1, .f32⟩
  | .hbm, ⟨8, _⟩ => ⟨S16384x4, .f32⟩
  | .hbm, ⟨9, _⟩ => ⟨S16384x10, .f32⟩
  | .hbm, ⟨10, _⟩ => ⟨S10x1, .f32⟩
  | .hbm, ⟨11, _⟩ => ⟨S16384x1, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  transposes_S10x1_S1x10_1_0 : S10x1.Transposes [1, 0] S1x10
  slices_S16384x10_S16384x2_0_0 : S16384x10.Slices ![0, 0] S16384x2
  slices_S16384x10_S16384x3_0_2 : S16384x10.Slices ![0, 2] S16384x3
  slices_S16384x10_S16384x1_0_5 : S16384x10.Slices ![0, 5] S16384x1
  slices_S16384x10_S16384x4_0_6 : S16384x10.Slices ![0, 6] S16384x4
  concatenates_S16384x4_S16384x2_S16384x1_S16384x3_S16384x10_d1 : Shape.Concatenates [S16384x4, S16384x2, S16384x1, S16384x3] S16384x10 1
  transposes_S1x10_S10x1_1_0 : S1x10.Transposes [1, 0] S10x1
  dot_S16384x1_S1x10_S16384x10_1_0_0_1_n_n_wf : DotDims.WF S16384x1 S1x10 S16384x10 [1] [0] [0] [1] [] []
  dot_S16384x10_S10x1_S16384x1_1_0_0_1_n_n_wf : DotDims.WF S16384x10 S10x1 S16384x1 [1] [0] [0] [1] [] []

variable [Facts₀]

def dot_S16384x1_S1x10_S16384x10_1_0_0_1_n_n : DotDims S16384x1 S1x10 S16384x10 where
  lhsContracting := [1]
  rhsContracting := [0]
  lhsNonContracting := [0]
  rhsNonContracting := [1]
  lhsBatch := []
  rhsBatch := []
  wf := dot_S16384x1_S1x10_S16384x10_1_0_0_1_n_n_wf
def dot_S16384x10_S10x1_S16384x1_1_0_0_1_n_n : DotDims S16384x10 S10x1 S16384x1 where
  lhsContracting := [1]
  rhsContracting := [0]
  lhsNonContracting := [0]
  rhsNonContracting := [1]
  lhsBatch := []
  rhsBatch := []
  wf := dot_S16384x10_S10x1_S16384x1_1_0_0_1_n_n_wf

class Facts : Prop extends Facts₀ where

variable [Facts]
-- ==== Proof.Bits.Setup.lean ====
/-
  The kernel program as the SparseCore launch theorem sees it: one vector-subcore call on SparseCore 0's
  sixteen tiles; the ghost state is the launch handshakes' rounds beside the local transfers' counters
  (every copy of the kernel is issued and awaited by one tile on a semaphore of its own).
  The four HBM arrays of the call: the flat input (16384 words), the two flat weight vectors (10 words
  each) and the flat result.
-/
import proofs.«212145_g27582279975355_cont_9to1_2260_10_alg».proof.Defs
import Idealize.ShloMosaic.Lib.SparseCore.Launch
import Idealize.ShloMosaic.Lib.StableHlo.Run
import Idealize.ShloMosaic.Lib.Pipeline.Kit
import Idealize.ShloMosaic.Lib.Tactic
import proofs.«212145_g27582279975355_cont_9to1_2260_10_alg».proof.Proof.Gen.Kernel
import proofs.«212145_g27582279975355_cont_9to1_2260_10_alg».proof.Proof.Gen.Kernel.Skeleton

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev MM (F : FTy → Type) : Type := MT nD τ sig (HIx 1) (Elt F) ℕ UU ℕ

abbrev EH : Emb UH (MT nD τ sig (HIx 1) (Elt F) ℕ UU ℕ) := embL

/-! ## The four arrays of the call, as locations of device `d` -/

abbrev xLoc (d : Dev nD) : Loc nD τ sig := (SparseCore.T d).loc main_v0
abbrev aLoc (d : Dev nD) : Loc nD τ sig := (SparseCore.T d).loc main_v1
abbrev bLoc (d : Dev nD) : Loc nD τ sig := (SparseCore.T d).loc main_v2
abbrev oLoc (d : Dev nD) : Loc nD τ sig := (SparseCore.T d).loc main_v3

/-- The arrays as a tile's memrefs name them (the body table's spelling). -/
abbrev xV : Memref sig .scVector .hbm S16384 .f32 := Memref.whole main_v0_scv
abbrev aV : Memref sig .scVector .hbm S10 .f32 := Memref.whole main_v1_scv
abbrev bV : Memref sig .scVector .hbm S10 .f32 := Memref.whole main_v2_scv
abbrev oV : Memref sig .scVector .hbm S16384 .f32 := Memref.whole main_v3_scv
/-- A tile's scratch: its 1024-word chunk and the two 16-word weight registers' staging. -/
abbrev sX : Memref sig .scVector .vmem S1024 .f32 := Memref.whole cc0_scratch0
abbrev sA : Memref sig .scVector .vmem S16 .f32 := Memref.whole cc0_scratch1
abbrev sB : Memref sig .scVector .vmem S16 .f32 := Memref.whole cc0_scratch2

end Cert.Proof.BitsSide

end
-- ==== Proof.Bits.Scale.lean ====
/-
  The arithmetic of one tile, for any float values: the kernel folds the two weight vectors into ONE scalar,
  the sum over j of b_j · a_{π j} for the fixed rearrangement π = (6, 7, 8, 9, 0, 1, 5, 2, 3, 4) taken from
  the left, and multiplies every word of its chunk by it. Here that scalar as a function of the first ten
  lanes of the two loaded 16-lane vectors, and the stored 16-lane payload lane by lane.
-/
import proofs.«212145_g27582279975355_cont_9to1_2260_10_alg».proof.Proof.Bits.Setup
import Idealize.ShloMosaic.Lib.Pipeline.Value
import Idealize.ShloMosaic.Lib.ValueIdx

noncomputable section

namespace Cert.Proof.BitsSide

open Cert.Kernel Cert.Kernel.Gen
open Idealize.ShloMosaic Idealize.ShloMosaic.ValueIdx

variable {F : FTy → Type} [FloatOps F]

/-- Lane `k` of a 16-lane vector, as the one-element slice at offset `k` read at its only position. -/
theorem pick {α : Type} (v : S16.Idx → α) (k : ℕ) (hs : S16.Slices ![k] S1) (hp : ∀ a, (![0] : Fin 1 → ℕ) a < S1.size a) (hk : k < 16) :
    extractAt ![0] (extractStridedSlice S1 ![k] v hs) hp = v (ix1 (⟨k, hk⟩ : Fin 16)) := by
  unfold extractAt extractStridedSlice
  exact congrArg v (funext fun a => match a with | ⟨0, _⟩ => rfl)

/-- The scale: b₀a₆ + b₁a₇ + b₂a₈ + b₃a₉ + b₄a₀ + b₅a₁ + b₆a₅ + b₇a₂ + b₈a₃ + b₉a₄, summed from the left. -/
def scaleOf (a b : Fin 10 → F .f32) : F .f32 :=
  Scalar.addf (Scalar.addf (Scalar.addf (Scalar.addf (Scalar.addf (Scalar.addf (Scalar.addf (Scalar.addf (Scalar.addf
    (Scalar.mulf (b 0) (a 6)) (Scalar.mulf (b 1) (a 7))) (Scalar.mulf (b 2) (a 8))) (Scalar.mulf (b 3) (a 9)))
    (Scalar.mulf (b 4) (a 0))) (Scalar.mulf (b 5) (a 1))) (Scalar.mulf (b 6) (a 5))) (Scalar.mulf (b 7) (a 2)))
    (Scalar.mulf (b 8) (a 3))) (Scalar.mulf (b 9) (a 4))

/-- The first ten lanes of a 16-lane vector. -/
def lanes10 (v : Vec F S16 .f32) : Fin 10 → F .f32 := fun k => v (ix1 (⟨k.val, by omega⟩ : Fin 16))

/-- What a trip stores: lane by lane the loaded word times the scale of the two loaded weight vectors. -/
theorem pay_apply (v13 v15 v83 : Vec F S16 .f32) (i : S16.Idx) :
    k0_pay1 (k0_pay2 v13) (k0_pay3 v15) (k0_pay4 v13 v15) (k0_pay5 v15) v83 i
      = FloatOps.mulf (v83 i) (scaleOf (lanes10 v13) (lanes10 v15)) := by
  unfold k0_pay1 k0_pay4 k0_pay5 k0_pay2 k0_pay3
  simp (disch := decide) only [shapeCast_self, pick]
  rfl

end Cert.Proof.BitsSide

end
-- ==== Proof.Bits.Chunk.lean ====
/-
  The index arithmetic of one tile's chunk. A trip rewrites words 16k … 16k+15 of the 1024-word scratch with
  their multiples, so before trip k the words below 16k are scaled and the others untouched; the two weight
  scratches hold the ten fetched words in lanes 0 … 9; and word y of the tile's chunk is word (base + y) of the
  flat array, so that a chunk written from the scaled scratch agrees there with the whole scaled array.
-/
import proofs.«212145_g27582279975355_cont_9to1_2260_10_alg».proof.Proof.Bits.Scale
import Idealize.ShloMosaic.Lib.WritesUnit
import Idealize.ShloMosaic.Lib.Exec

noncomputable section

namespace Cert.Proof.BitsSide

open Cert.Kernel Cert.Kernel.Gen
open Idealize.ShloMosaic Idealize.ShloMosaic.ValueIdx
open Idealize.ShloMosaic.SparseCore (S V T)

variable {F : FTy → Type} [FloatOps F]

/-- The tile's 1024-word chunk of a flat 16384-word array, as the body slices it. -/
abbrev chunkR (L : grid0.Coords) : Rect S16384 := Rect.unit (s := S16384) (k0_off1 L) S1024.size (k0_off1_inb L)
abbrev xCh (L : grid0.Coords) : Memref sig .scVector .hbm S1024 .f32 := (xV).slice (chunkR L) (fun _ => rfl)
abbrev oCh (L : grid0.Coords) : Memref sig .scVector .hbm S1024 .f32 := (oV).slice (chunkR L) (fun _ => rfl)
/-- The chunk's elements. -/
abbrev chunkSet (L : grid0.Coords) : Finset S16384.Idx := (chunkR L).set

/-- The scaling loop makes 64 trips. -/
theorem trips_eq : Scf.trips k0_t1_loop.lb k0_t1_loop.ub k0_t1_loop.st = 64 := by decide

/-- One trip's store read back: the sixteen words at `16 k` are now scaled, the others as they were. -/
theorem step_fact (pay : Vec F S16 .f32 → FVec F S16 .f32) (c : F .f32)
    (hpay : ∀ (v83 : Vec F S16 .f32) (i : S16.Idx), pay v83 i = FloatOps.mulf (v83 i) c)
    (x0 : S1024.Idx → F .f32) (k : Fin k0_t1_loop.trips)
    (f : (sX).view.ty.Contents (Elt F))
    (hf : ∀ y : S1024.Idx, f y = if (y 0).val < 16 * k.val then FloatOps.mulf (x0 y) c else x0 y) (y : S1024.Idx) :
    (sX).view.writes (Elt F) f [⟨Rect.unit (s := S1024) (k0_off2 k) S16.size (k0_off2_inb k),
        pay (View.readAt (Elt F) (sX).view (Rect.unit (s := S1024) (k0_off2 k) S16.size (k0_off2_inb k)).toLoadRect f)⟩] y
      = if (y 0).val < 16 * (k.val + 1) then FloatOps.mulf (x0 y) c else x0 y := by
  have hoff : k0_off2 k = ![16 * k.val] := k0_off2_eq k
  refine (View.read_writes_cons_unit (sX).view f (k0_off2_inb k) _ [] y hoff).trans ?_
  by_cases h : ∀ a : Fin S1024.rank, (![16 * k.val] : Fin 1 → ℕ) a ≤ (y a).val ∧ (y a).val < (![16 * k.val] : Fin 1 → ℕ) a + S16.size a
  · rw [dif_pos h, hpay, View.readAt_apply]
    have h0 : 16 * k.val ≤ (y 0).val ∧ (y 0).val < 16 * k.val + 16 := h 0
    have hidx : (Rect.unit (s := S1024) (k0_off2 k) S16.size (k0_off2_inb k)).toLoadRect.idx (Rect.unitLocal (s := S1024) (off := ![16 * k.val]) (size := S16.size) y h) = y := by
      funext a; apply Fin.ext
      rw [LoadRect.idx_apply]
      obtain rfl : a = 0 := Subsingleton.elim _ _
      show k0_off2 k 0 + 1 * ((y 0).val - (![16 * k.val] : Fin 1 → ℕ) 0) = (y 0).val
      rw [hoff]; show 16 * k.val + 1 * ((y 0).val - 16 * k.val) = _; omega
    rw [hidx]
    show FloatOps.mulf (f y) c = _
    rw [hf y, if_neg (by omega), if_pos (by omega)]
  · rw [dif_neg h]
    show f y = _
    rw [hf y]
    have h0 : ¬ (16 * k.val ≤ (y 0).val ∧ (y 0).val < 16 * k.val + 16) := fun hh => h (fun a => by
      obtain rfl : a = 0 := Subsingleton.elim _ _; exact hh)
    by_cases h1 : (y 0).val < 16 * k.val
    · rw [if_pos h1, if_pos (by omega)]
    · rw [if_neg h1, if_neg (by omega)]

/-- A 16-word scratch whose first ten words were fetched holds them in its first ten lanes. -/
theorem lanes_fetched {κ : Kind} {sp : Space} (v : View sig κ sp S16 .f32) (fa : v.ty.Contents (Elt F))
    (w : (Rect.unit (s := S16) ![0] S10.size inb_S16_S10_0).shape.Idx → F .f32) :
    lanes10 (View.readAt (Elt F) v (Rect.unit (s := S16) ![0] S16.size inb_S16_S16_0).toLoadRect
      (v.writes (Elt F) fa [⟨Rect.unit ![0] S10.size inb_S16_S10_0, w⟩])) = fun k => w (ix1 k) := by
  funext k
  unfold lanes10
  rw [View.readAt_apply]
  have hidx : (Rect.unit (s := S16) ![0] S16.size inb_S16_S16_0).toLoadRect.idx (ix1 (⟨k.val, by omega⟩ : Fin 16)) = ix1 (⟨k.val, by omega⟩ : Fin 16) := by
    funext a; apply Fin.ext
    rw [LoadRect.idx_apply]
    obtain rfl : a = 0 := Subsingleton.elim _ _
    show 0 + 1 * k.val = k.val
    omega
  rw [hidx]
  exact View.read_writes_cons_unit_of_mem v fa inb_S16_S10_0 w [] (ix1 (⟨k.val, by omega⟩ : Fin 16)) (ix1 k) rfl (fun a => by
    obtain rfl : a = 0 := Subsingleton.elim _ _
    show k.val = 0 + k.val
    omega)

/-- The chunk written whole from a scratch that holds the scaled words agrees, on the chunk's elements, with the
    scaled array. -/
theorem out_fact (L : grid0.Coords) (X : S16384.Idx → F .f32) (c : F .f32) (fo : (oCh L).view.ty.Contents (Elt F))
    (f : S1024.Idx → F .f32) (hf : ∀ y : S1024.Idx, f y = FloatOps.mulf (X ((chunkR L).emb y)) c) :
    ∀ n ∈ chunkSet L, ((oCh L).view.writes (Elt F) fo [⟨Rect.whole S1024, f⟩]) n = FloatOps.mulf (X n) c := by
  intro n hn
  have hn' : n ∈ Finset.univ.map (chunkR L).emb := by rw [Rect.map_emb_univ]; exact hn
  obtain ⟨j, -, rfl⟩ := Finset.mem_map.mp hn'
  have h := congrFun (View.read_writes_whole (oCh L).view fo f) j
  rw [View.read_apply, cast_eq] at h
  exact h.trans (hf j)

end Cert.Proof.BitsSide

end
-- ==== Proof.Bits.Tile.lean ====
/-
  One tile's task. Tile i of SparseCore 0 fetches words 1024 i … 1024 i + 1023 of the flat input and the two
  ten-word weight vectors into its own scratch (three copies on three semaphores of its own, each awaited
  before its destination is read), folds the weights into one scalar, multiplies its chunk by it sixteen words
  a trip, and copies the chunk out to the same words of the flat result. From the tile's chunk of the input,
  a read share of each weight vector and its chunk of the result, the task ends with the same and its chunk
  of the result at the input's words times the scale; its scratch and semaphores are returned as found.
-/
import proofs.«212145_g27582279975355_cont_9to1_2260_10_alg».proof.Proof.Bits.Chunk

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

local notation "𝕄" => MT nD τ sig (HIx 1) (Elt F) ℕ UU ℕ

section Tile

variable (d : Dev nD) (L : grid0.Coords)

abbrev cV (L : grid0.Coords) : Fin τ.nSC := (L 0).castLE hcore0
abbrev jV (L : grid0.Coords) : Fin τ.nSub := (L 1).castLE hsub0

theorem set_xCh : (xCh L).view.set = chunkSet L := by
  show ((View.whole (main_v0_scv : Ref sig .scVector)).slice (chunkR L)).set = _
  rw [View.set_slice]; exact Finset.map_refl
theorem set_oCh : (oCh L).view.set = chunkSet L := by
  show ((View.whole (main_v3_scv : Ref sig .scVector)).slice (chunkR L)).set = _
  rw [View.set_slice]; exact Finset.map_refl

abbrev cXcell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scratch4.sem)
abbrev cBcell (d : Dev nD) (c : Fin τ.nSC) (i : Fin τ.nSub) : GSem nD τ sig := (V d c i, .dma cc0_scratch5.sem)
abbrev cOcell (d : Dev nD) (c : Fin τ.nSC) (i : Fin τ.nSub) : GSem nD τ sig := (V d c i, .dma cc0_scoped0.sem)

/-- The arrays as the tile's memrefs address them are the device's arrays. -/
theorem pts_xCh (f : Buf (Elt F) (xLoc d)) :
    ((xCh L).view.loc (V d (cV L) (jV L)) ↦[(xCh L).view.set]{fullShare} f : sProp 𝕄) = xLoc d ↦[chunkSet L]{fullShare} f := by
  rw [set_xCh]
theorem pts_oCh (f : Buf (Elt F) (oLoc d)) :
    ((oCh L).view.loc (V d (cV L) (jV L)) ↦[(oCh L).view.set]{fullShare} f : sProp 𝕄) = oLoc d ↦[chunkSet L]{fullShare} f := by
  rw [set_oCh]
theorem pts_aV (q : PosShare TreeShare) (f : Buf (Elt F) (aLoc d)) :
    ((aV).view.loc (V d (cV L) (jV L)) ↦{q} f : sProp 𝕄) = aLoc d ↦{q} f := rfl
theorem pts_bV (q : PosShare TreeShare) (f : Buf (Elt F) (bLoc d)) :
    ((bV).view.loc (V d (cV L) (jV L)) ↦{q} f : sProp 𝕄) = bLoc d ↦{q} f := rfl
theorem pts_sX (f : Buf (Elt F) ((V d (cV L) (jV L)).loc cc0_scratch0)) :
    ((sX).view.loc (V d (cV L) (jV L)) ↦{fullShare} f : sProp 𝕄) = (V d (cV L) (jV L)).loc cc0_scratch0 ↦{fullShare} f := rfl
theorem pts_sA (f : Buf (Elt F) ((V d (cV L) (jV L)).loc cc0_scratch1)) :
    ((sA).view.loc (V d (cV L) (jV L)) ↦{fullShare} f : sProp 𝕄) = (V d (cV L) (jV L)).loc cc0_scratch1 ↦{fullShare} f := rfl
theorem pts_sB (f : Buf (Elt F) ((V d (cV L) (jV L)).loc cc0_scratch2)) :
    ((sB).view.loc (V d (cV L) (jV L)) ↦{fullShare} f : sProp 𝕄) = (V d (cV L) (jV L)).loc cc0_scratch2 ↦{fullShare} f := rfl

/-- The tile's four DMA semaphores are among its own cells. -/
theorem ownSems0_V :
    (ownSems0 (V d (cV L) (jV L)) : sProp 𝕄)
      = iprop(semVal (cXcell d (cV L) (jV L)) 0 ∗ semVal (cAcell d (cV L) (jV L)) 0 ∗ semVal (cBcell d (cV L) (jV L)) 0 ∗ semVal (cOcell d (cV L) (jV L)) 0
          ∗ bigSep (((((ownCells (V d (cV L) (jV L))).erase (cXcell d (cV L) (jV L))).erase (cAcell d (cV L) (jV L))).erase (cBcell d (cV L) (jV L))).erase (cOcell d (cV L) (jV L)))
              fun g => semVal g 0) := by
  unfold SparseCore.Cfg.ownSems0
  rw [SparseCore.bigSep_erase' ((mem_ownCells (g := cXcell d (cV L) (jV L))).mpr ⟨rfl, by
      show (SemLoc.dma cc0_scratch3.sem : SemLoc sig).isScoped .scVector = true; decide⟩),
    SparseCore.bigSep_erase' (Finset.mem_erase.mpr ⟨by simp [cXcell, cAcell]; decide, (mem_ownCells (g := cAcell d (cV L) (jV L))).mpr ⟨rfl, by
      show (SemLoc.dma cc0_scratch4.sem : SemLoc sig).isScoped .scVector = true; decide⟩⟩),
    SparseCore.bigSep_erase' (Finset.mem_erase.mpr ⟨by simp [cAcell, cBcell]; decide, Finset.mem_erase.mpr ⟨by simp [cXcell, cBcell]; decide,
      (mem_ownCells (g := cBcell d (cV L) (jV L))).mpr ⟨rfl, by show (SemLoc.dma cc0_scratch5.sem : SemLoc sig).isScoped .scVector = true; decide⟩⟩⟩),
    SparseCore.bigSep_erase' (Finset.mem_erase.mpr ⟨by simp [cBcell, cOcell]; decide, Finset.mem_erase.mpr ⟨by simp [cAcell, cOcell]; decide,
      Finset.mem_erase.mpr ⟨by simp [cXcell, cOcell]; decide,
      (mem_ownCells (g := cOcell d (cV L) (jV L))).mpr ⟨rfl, by show (SemLoc.dma cc0_scoped0.sem : SemLoc sig).isScoped .scVector = true; decide⟩⟩⟩⟩)]

/-- The three scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

/-- What the call leaves in the result array, for any float values: every word of the input times the scale. -/
def outOf (X : Buf (Elt F) (xLoc d)) (A : Buf (Elt F) (aLoc d)) (B : Buf (Elt F) (bLoc d)) : Buf (Elt F) (oLoc d) :=
  fun n => FloatOps.mulf (X n) (scaleOf (fun k => A (ix1 k)) (fun k => B (ix1 k)))

/-- Before trip `k` of the scaling loop the chunk scratch holds the scaled words below `16 k` and the fetched words
    from there on. -/
def inv (x0 : S1024.Idx → F .f32) (c : F .f32) (k : ℕ) (_ : Unit) : sProp 𝕄 :=
  iprop(∃ f : Buf (Elt F) ((sX).view.loc (V d (cV L) (jV L))), ((sX).view.loc (V d (cV L) (jV L)) ↦{fullShare} f)
    ∗ ⌜∀ y : S1024.Idx, f y = if (y 0).val < 16 * k then FloatOps.mulf (x0 y) c else x0 y⌝)

/-- One trip: sixteen words loaded, scaled, stored back where they were. -/
theorem trip (v14 v16 : FVec F S16 .f32) (v39 : F .f32) (v40 : FVec F S1 .f32) (c : F .f32)
    (hpay : ∀ (v83 : Vec F S16 .f32) (i : S16.Idx), k0_pay1 v14 v16 v39 v40 v83 i = FloatOps.mulf (v83 i) c)
    (x0 : S1024.Idx → F .f32) (k : Fin k0_t1_loop.trips) (acc : Unit) :
    inv d L x0 c k.val acc ⊢ wp frame (wpE (defs₀ (F := F)) 𝒱₀ (V d (cV L) (jV L)) none) Set.univ
      (k0_t1_body L xV (Memref.isWhole_whole _) aV (Memref.isWhole_whole _) bV (Memref.isWhole_whole _) oV (Memref.isWhole_whole _)
        sX (Memref.isWhole_whole _) sA (Memref.isWhole_whole _) sB (Memref.isWhole_whole _) cc0_scratch3 cc0_scratch4 cc0_scratch5 cc0_scoped0
        v14 v16 v39 v40 k acc) (inv d L x0 c (k.val + 1)) := by
  unfold inv k0_t1_body
  iintro ⟨%f, Hsx, %hf⟩
  sl_exec
  sl_step
  iexists _; isplitl [Hsx]; · iexact Hsx
  ipureintro
  intro y
  exact step_fact (k0_pay1 v14 v16 v39 v40) c hpay x0 k f hf y

theorem tile_body (hF : (K (F := F)).Facts) (O : CellTallies nD τ sig (HIx 1)) (W : Waits sig (HIx 1)) (hO : ∀ g, O g none = 0)
    (X : Buf (Elt F) (xLoc d)) (A : Buf (Elt F) (aLoc d)) (B : Buf (Elt F) (bLoc d))
    (q : PosShare TreeShare) :
    iprop(levAts (K (F := F)).L (K (F := F)).lev ∗ emp
        ∗ ((xLoc d ↦[chunkSet L]{fullShare} X) ∗ (aLoc d ↦{q} A) ∗ (bLoc d ↦{q} B) ∗ ∃ fo, oLoc d ↦[chunkSet L]{fullShare} fo)
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__sc_net L xV (Memref.isWhole_whole _) aV (Memref.isWhole_whole _) bV (Memref.isWhole_whole _) oV (Memref.isWhole_whole _)
            sX (Memref.isWhole_whole _) sA (Memref.isWhole_whole _) sB (Memref.isWhole_whole _) cc0_scratch3 cc0_scratch4 cc0_scratch5 cc0_scoped0)
          fun _ => iprop(((xLoc d ↦[chunkSet L]{fullShare} X) ∗ (aLoc d ↦{q} A) ∗ (bLoc d ↦{q} B) ∗ (oLoc d ↦[chunkSet L]{fullShare} outOf d X A B))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_net_eq_skeleton]; unfold cc0__sc_net_skel
  rw [(K (F := F)).scopedBufs_V hF d (cV L) (jV L), SparseCore.Cfg.scopedSems0_V (Val := Elt F) d (cV L) (jV L), ownSems0_V, ownBufs_V]
  iintro ⟨#Hlv, -, ⟨Hx, Ha, Hb, ⟨%fo, Ho⟩⟩, ⟨⟨%fx, Hsx⟩, ⟨%fa, Hsa⟩, ⟨%fb, Hsb⟩, Hbufs⟩, ⟨HsemX, HsemA, HsemB, HsemO, Hsems⟩, HO⟩
  ihave Hmw := ((K (F := F)).mayWaits_none (thr := V d (cV L) (jV L)) hO) $$ Hlv
  ihave Hx' := (Entails.of_eq (pts_xCh (F := F) d L _).symm) $$ Hx
  ihave Ho' := (Entails.of_eq (pts_oCh (F := F) d L _).symm) $$ Ho
  ihave Ha' := (Entails.of_eq (pts_aV (F := F) d L q _).symm) $$ Ha
  ihave Hb' := (Entails.of_eq (pts_bV (F := F) d L q _).symm) $$ Hb
  ihave Hsx' := (Entails.of_eq (pts_sX (F := F) d L _).symm) $$ Hsx
  ihave Hsa' := (Entails.of_eq (pts_sA (F := F) d L _).symm) $$ Hsa
  ihave Hsb' := (Entails.of_eq (pts_sB (F := F) d L _).symm) $$ Hsb
  sl_exec
  -- the loaded weight vectors' first ten lanes are the fetched vectors; what a trip stores is the loaded words times the scale
  have hpay : ∀ (v83 : Vec F S16 .f32) (i : S16.Idx),
      k0_pay1 (tile_body.sl.r d L A fa) (tile_body.sl.r_1 d L B fb) (tile_body.sl.r_2 d L A B fa fb) (tile_body.sl.r_3 d L B fb) v83 i
        = FloatOps.mulf (v83 i) (scaleOf (fun k => A (ix1 k)) (fun k => B (ix1 k))) := by
    intro v83 i
    have h := pay_apply (F := F)
      (View.readAt (Elt F) (sA).view (Rect.unit (s := S16) ![0] S16.size inb_S16_S16_0).toLoadRect
        ((sA).view.writes (Elt F) fa [⟨Rect.unit ![0] S10.size inb_S16_S10_0, tile_body.sl.dma0_1 d A⟩]))
      (View.readAt (Elt F) (sB).view (Rect.unit (s := S16) ![0] S16.size inb_S16_S16_0).toLoadRect
        ((sB).view.writes (Elt F) fb [⟨Rect.unit ![0] S10.size inb_S16_S10_0, tile_body.sl.dma0_2 d B⟩])) v83 i
    rw [lanes_fetched, lanes_fetched] at h
    exact h
  sl_for (inv d L (tile_body.sl.dma0 d L X) (scaleOf (fun k => A (ix1 k)) (fun k => B (ix1 k)))) $$ [Hsx']
  case region =>
    intro k acc
    exact trip d L _ _ _ _ _ hpay _ k acc
  · unfold inv
    iexists _; isplitl [Hsx']; · iexact Hsx'
    ipureintro
    intro y
    rw [if_neg (by omega)]
    exact congrFun (View.write_whole_univ (cc0_scratch0 : Ref sig .scVector) fx (tile_body.sl.dma0 d L X)) y
  iintro %_ HI
  unfold inv
  icases HI with ⟨%f, Hsx, %hf⟩
  sl_exec
  sl_step
  -- every word of the scratch is scaled after the last trip; the chunk of the result written from it is the scaled chunk
  have hf' : ∀ y : S1024.Idx, tile_body.sl.dma0_3 d L f y
      = FloatOps.mulf (X ((chunkR L).emb y)) (scaleOf (fun k => A (ix1 k)) (fun k => B (ix1 k))) := by
    intro y
    have h := hf y
    rw [trips_eq, if_pos (show (y 0).val < 16 * 64 from (y 0).isLt)] at h
    exact h
  have hcongr := out_fact (F := F) L X (scaleOf (fun k => A (ix1 k)) (fun k => B (ix1 k))) fo (tile_body.sl.dma0_3 d L f) hf'
  ihave Ho2 := (Entails.of_eq (pts_oCh (F := F) d L _)) $$ Ho'
  ihave Ho3 := (Entails.of_eq (pointsTo_congr (g := outOf d X A B) hcongr)) $$ Ho2
  ihave Hx2 := (Entails.of_eq (pts_xCh (F := F) d L _)) $$ Hx'
  isplitl [Hx2 Ha' Hb' Ho3]
  · isplitl [Hx2]; · iexact Hx2
    isplitl [Ha']; · iexact Ha'
    isplitl [Hb']; · iexact Hb'
    iexact Ho3
  isplitl [Hsx Hsa' Hsb' Hbufs]
  · isplitl [Hsx]; · iexists _; iexact Hsx
    isplitl [Hsa']; · iexists _; iexact Hsa'
    isplitl [Hsb']; · iexists _; iexact Hsb'
    iexact Hbufs
  isplitl [HsemX HsemA HsemB HsemO Hsems]
  · isplitl [HsemX]; · iexact HsemX
    isplitl [HsemA]; · iexact HsemA
    isplitl [HsemB]; · iexact HsemB
    isplitl [HsemO]; · iexact HsemO
    iexact Hsems
  iexists (insert (SemLoc.dma cc0_scoped0.sem, (default : HIx 1)) (insert (SemLoc.dma cc0_scratch3.sem, (default : HIx 1))
    (insert (SemLoc.dma cc0_scratch5.sem, (default : HIx 1)) (insert (SemLoc.dma cc0_scratch4.sem, (default : HIx 1)) W)))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.BitsSide

end
-- ==== Proof.Bits.Launch.lean ====
/-
  The launch of the one SparseCore call. The TensorCore hands SparseCore 0 the four flat arrays whole — the
  input, the two weight vectors and the result —; its sequencer deals tile i words 1024 i … 1024 i + 1023 of
  the input and of the result and one read share of each weight vector; the sixteen tiles' chunks tile the
  16384 words, so what comes back is the input and the weights as they were and the result at every word
  the input's word times the scale.
-/
import proofs.«212145_g27582279975355_cont_9to1_2260_10_alg».proof.Proof.Bits.Tile

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic Idealize.ShloMosaic.ValueIdx

variable {F : FTy → Type}

local notation "𝕄" => MT nD τ sig (HIx 1) (Elt F) ℕ UU ℕ

/-! ## The sixteen chunks tile the flat array -/

theorem chunkOf_inb (i : Fin 16) : ∀ a, (![1024 * i.val] : Fin 1 → ℕ) a + S1024.size a ≤ S16384.size a := by
  intro a
  obtain rfl : a = 0 := Subsingleton.elim _ _
  show 1024 * i.val + 1024 ≤ 16384
  have := i.isLt; omega

/-- Tile `i`'s words of a flat 16384-word array: 1024 i … 1024 i + 1023. -/
def chunkOf (i : Fin 16) : Finset S16384.Idx := (Rect.unit (s := S16384) ![1024 * i.val] S1024.size (chunkOf_inb i)).set

theorem mem_chunkOf (i : Fin 16) (n : S16384.Idx) : n ∈ chunkOf i ↔ 1024 * i.val ≤ (n 0).val ∧ (n 0).val < 1024 * i.val + 1024 := by
  unfold chunkOf
  rw [Rect.mem_set_unit]
  constructor
  · intro h; exact h 0
  · intro h a
    obtain rfl : a = 0 := Subsingleton.elim _ _
    exact h

theorem chunks_disjoint : ∀ i ∈ (Finset.univ : Finset (Fin 16)), ∀ j ∈ (Finset.univ : Finset (Fin 16)), i ≠ j → Disjoint (chunkOf i) (chunkOf j) := by
  intro i _ j _ hij
  refine Finset.disjoint_left.mpr fun n hi hj => hij (Fin.ext ?_)
  have h1 := (mem_chunkOf i n).mp hi
  have h2 := (mem_chunkOf j n).mp hj
  omega

theorem chunks_cover : (Finset.univ : Finset (Fin 16)).biUnion chunkOf = Finset.univ := by
  ext n
  simp only [Finset.mem_biUnion, Finset.mem_univ, true_and, iff_true]
  have hn : (n 0).val < 16384 := (n 0).isLt
  exact ⟨⟨(n 0).val / 1024, by omega⟩, (mem_chunkOf _ n).mpr ⟨by show 1024 * ((n 0).val / 1024) ≤ _; omega, by show _ < 1024 * ((n 0).val / 1024) + 1024; omega⟩⟩

theorem bound_one : grid0.bound 1 = 16 := rfl
abbrev jL (L : grid0.Coords) : Fin 16 := Fin.cast bound_one (L 1)

/-- The chunk the body slices on tile `L` is the tile's. -/
theorem chunkSet_eq (L : grid0.Coords) : chunkSet L = chunkOf (jL L) := by
  ext n
  rw [mem_chunkOf]
  show n ∈ (Rect.unit (s := S16384) (k0_off1 L) S1024.size (k0_off1_inb L)).set ↔ _
  rw [Rect.mem_set_unit, k0_off1_eq]
  have h0 : (L 0).val = 0 := by have : (L 0).val < 1 := (L 0).isLt; omega
  constructor
  · intro h
    have := h 0
    have e : (![1024 * (L 1).val + 1024 * (L 0).val] : Fin 1 → ℕ) 0 = 1024 * (L 1).val + 1024 * (L 0).val := rfl
    rw [e, h0] at this
    exact ⟨by have := this.1; show 1024 * (L 1).val ≤ _; omega, by have := this.2; show _ < 1024 * (L 1).val + 1024; have e2 : S1024.size (0 : Fin 1) = 1024 := rfl; rw [e2] at this; omega⟩
  · intro h a
    obtain rfl : a = 0 := Subsingleton.elim _ _
    have e : (![1024 * (L 1).val + 1024 * (L 0).val] : Fin 1 → ℕ) 0 = 1024 * (L 1).val + 1024 * (L 0).val := rfl
    have e2 : S1024.size (0 : Fin 1) = 1024 := rfl
    rw [e, e2, h0]
    have h1 : 1024 * (L 1).val ≤ (n 0).val := h.1
    have h2 : (n 0).val < 1024 * (L 1).val + 1024 := h.2
    exact ⟨by omega, by omega⟩

/-! ## The arrays of the call: @main's three reshapes of its arguments -/

variable (m : (ℓ : Loc nD τ sig) → Buf (Elt F) ℓ) (ρ : Dev nD → PrngReg)

abbrev r_a0 : DevRef τ sig := Proc.devRef .tc (main_arg0 : Ref sig .tc)
abbrev r_a1 : DevRef τ sig := Proc.devRef .tc (main_arg1 : Ref sig .tc)
abbrev r_a2 : DevRef τ sig := Proc.devRef .tc (main_arg2 : Ref sig .tc)
abbrev r_x : DevRef τ sig := Proc.devRef .tc (main_v0 : Ref sig .tc)
abbrev r_a : DevRef τ sig := Proc.devRef .tc (main_v1 : Ref sig .tc)
abbrev r_b : DevRef τ sig := Proc.devRef .tc (main_v2 : Ref sig .tc)
abbrev r_o : DevRef τ sig := Proc.devRef .tc (main_v3 : Ref sig .tc)
abbrev r_y : DevRef τ sig := Proc.devRef .tc (main_v4 : Ref sig .tc)

abbrev op0 : HloOp τ sig (Elt F) := StableHlo.reshape main_arg0 main_v0 rfl shapeCasts_S16384x1_S16384
abbrev op1 : HloOp τ sig (Elt F) := StableHlo.reshape main_arg1 main_v1 rfl shapeCasts_S10x1_S10
abbrev op2 : HloOp τ sig (Elt F) := StableHlo.reshape main_arg2 main_v2 rfl shapeCasts_S1x10_S10
abbrev op4 : HloOp τ sig (Elt F) := StableHlo.reshape main_v3 main_v4 rfl shapeCasts_S16384_S16384x1

/-- The launch valuation, and the one after the three reshapes. -/
def V0 (d : Dev nD) : Valuation τ sig (Elt F) := fun b => m (d, b)
abbrev V3 (d : Dev nD) : Valuation τ sig (Elt F) := (op2 (F := F)).result ((op1 (F := F)).result ((op0 (F := F)).result (V0 m d)))

/-- The flat input and the two flat weight vectors as the call finds them. -/
def XA (d : Dev nD) : Buf (Elt F) (xLoc d) := V3 m d r_x
def AA (d : Dev nD) : Buf (Elt F) (aLoc d) := V3 m d r_a
def BA (d : Dev nD) : Buf (Elt F) (bLoc d) := V3 m d r_b

variable [FloatOps F]

/-- The flat result the call leaves. -/
def OA (d : Dev nD) : Buf (Elt F) (oLoc d) := outOf d (XA m d) (AA m d) (BA m d)

/-! ## What the handshakes carry -/

abbrev tokOf (i : Fin 16) : PosShare TreeShare := Transfers.shareTok fullShare 16 i

def stOf (d : Dev nD) : sProp 𝕄 :=
  iprop((xLoc d ↦{fullShare} XA m d) ∗ (aLoc d ↦{fullShare} AA m d) ∗ (bLoc d ↦{fullShare} BA m d) ∗ ∃ f, oLoc d ↦{fullShare} f)
def dnOf (d : Dev nD) : sProp 𝕄 :=
  iprop((xLoc d ↦{fullShare} XA m d) ∗ (aLoc d ↦{fullShare} AA m d) ∗ (bLoc d ↦{fullShare} BA m d) ∗ oLoc d ↦{fullShare} OA m d)
def goOf (d : Dev nD) (i : Fin 16) : sProp 𝕄 :=
  iprop((xLoc d ↦[chunkOf i]{fullShare} XA m d) ∗ (aLoc d ↦{tokOf i} AA m d) ∗ (bLoc d ↦{tokOf i} BA m d) ∗ ∃ f, oLoc d ↦[chunkOf i]{fullShare} f)
def tdOf (d : Dev nD) (i : Fin 16) : sProp 𝕄 :=
  iprop((xLoc d ↦[chunkOf i]{fullShare} XA m d) ∗ (aLoc d ↦{tokOf i} AA m d) ∗ (bLoc d ↦{tokOf i} BA m d) ∗ oLoc d ↦[chunkOf i]{fullShare} OA m d)

/-- The one call takes the four arrays whole, each task its chunk of the input and of the result and a read share
    of each weight vector, and brings them back, the result at the scaled input. -/
def P : (K (F := F)).Pay (nD := nD) (Val := Elt F) (Name := ℕ) (U := UU) where
  st := fun q d _ => match q with | 0 => stOf m d
  dn := fun q d _ => match q with | 0 => dnOf m d
  go := fun q d _ i => match q with | 0 => goOf m d (Fin.cast nSub_zero i)
  td := fun q d _ i => match q with | 0 => tdOf m d (Fin.cast nSub_zero i)
  x := fun _ _ => iprop(emp)

instance P_storable : (P (F := F) m).IsStorable where
  st q d _ := match q with | 0 => by show BI.Storable upEmb (stOf m d); unfold stOf; infer_instance
  dn q d _ := match q with | 0 => by show BI.Storable upEmb (dnOf m d); unfold dnOf; infer_instance
  go q d _ i := match q with | 0 => by show BI.Storable upEmb (goOf m d _); unfold goOf; infer_instance
  td q d _ i := match q with | 0 => by show BI.Storable upEmb (tdOf m d _); unfold tdOf; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_net (coordsV c s)
          xV (Memref.isWhole_whole _) aV (Memref.isWhole_whole _) bV (Memref.isWhole_whole _) oV (Memref.isWhole_whole _)
          sX (Memref.isWhole_whole _) sA (Memref.isWhole_whole _) sB (Memref.isWhole_whole _) cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's task stated over the tile's chunk by its number. -/
theorem tile_body' (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ goOf m d (jL L)
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__sc_net L xV (Memref.isWhole_whole _) aV (Memref.isWhole_whole _) bV (Memref.isWhole_whole _) oV (Memref.isWhole_whole _)
            sX (Memref.isWhole_whole _) sA (Memref.isWhole_whole _) sB (Memref.isWhole_whole _) cc0_scratch3 cc0_scratch4 cc0_scratch5 cc0_scoped0)
          fun _ => iprop(tdOf m d (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  unfold goOf tdOf OA
  rw [← chunkSet_eq L]
  exact tile_body d L hF O W hO (XA m d) (AA m d) (BA m d) (tokOf (jL L))

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body' m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A flat 16384-word array held whole is its sixteen chunks. -/
theorem xPts_chunks (d : Dev nD) (f : Buf (Elt F) (xLoc d)) :
    (xLoc d ↦{fullShare} f : sProp 𝕄) = bigSep Finset.univ fun i : Fin 16 => xLoc d ↦[chunkOf i]{fullShare} f := by
  rw [← pointsTo_biUnion Finset.univ (ℓ := xLoc d) chunkOf chunks_disjoint, chunks_cover]; try rfl
omit [FloatOps F] in
theorem oPts_chunks (d : Dev nD) (f : Buf (Elt F) (oLoc d)) :
    (oLoc d ↦{fullShare} f : sProp 𝕄) = bigSep Finset.univ fun i : Fin 16 => oLoc d ↦[chunkOf i]{fullShare} f := by
  rw [← pointsTo_biUnion Finset.univ (ℓ := oLoc d) chunkOf chunks_disjoint, chunks_cover]; try rfl

omit [FloatOps F] in
theorem chunk_some (d : Dev nD) (i : Fin 16) (f : Buf (Elt F) (oLoc d)) :
    (oLoc d ↦[chunkOf i]{fullShare} f : sProp 𝕄) ⊢ iprop(∃ g, oLoc d ↦[chunkOf i]{fullShare} g) := by
  iintro H; iexists f; iexact H
omit [FloatOps F] in
theorem chunks_some (d : Dev nD) (f : Buf (Elt F) (oLoc d)) :
    (bigSep Finset.univ fun i : Fin 16 => (oLoc d ↦[chunkOf i]{fullShare} f : sProp 𝕄))
      ⊢ bigSep Finset.univ fun i : Fin 16 => iprop(∃ g, oLoc d ↦[chunkOf i]{fullShare} g) :=
  bigSep_mono fun i _ => chunk_some d i f

theorem vecSplit : (K (F := F)).VecSplit' (P m) 0 := by
  intro d c
  show stOf m d ⊢ |={Set.univ}=> iprop((bigSep Finset.univ fun i : Fin ((K (F := F)).nSub 0) => goOf m d (Fin.cast nSub_zero i))
      ∗ ((bigSep Finset.univ fun i : Fin ((K (F := F)).nSub 0) => tdOf m d (Fin.cast nSub_zero i)) -∗ dnOf m d))
  rw [bigSep_tasks (F := F) (goOf m d), bigSep_tasks (F := F) (tdOf m d)]
  unfold stOf dnOf goOf tdOf
  rw [bigSep_sep', bigSep_sep', bigSep_sep', bigSep_sep', bigSep_sep', bigSep_sep']
  rw [xPts_chunks d (XA m d), oPts_chunks d (OA m d)]
  iintro ⟨Hx, Ha, Hb, %f, Ho⟩
  ihave Ha' := (Transfers.pointsTo_toks_split fullShare 16) $$ Ha
  icases Ha' with ⟨Har, Hat⟩
  ihave Hb' := (Transfers.pointsTo_toks_split fullShare 16) $$ Hb
  icases Hb' with ⟨Hbr, Hbt⟩
  ihave Ho' := (Entails.of_eq (oPts_chunks (F := F) d f)) $$ Ho
  ihave Ho'' := (chunks_some (F := F) d f) $$ Ho'
  imodintro
  isplitl [Hx Hat Hbt Ho'']
  · isplitl [Hx]; · iexact Hx
    isplitl [Hat]; · iexact Hat
    isplitl [Hbt]; · iexact Hbt
    iexact Ho''
  iintro ⟨Hx, Hat, Hbt, Ho⟩
  isplitl [Hx]; · iexact Hx
  isplitl [Har Hat]
  · iapply (Transfers.pointsTo_toks_join fullShare 16)
    isplitl [Har]; · iexact Har
    iexact Hat
  isplitl [Hbr Hbt]
  · iapply (Transfers.pointsTo_toks_join fullShare 16)
    isplitl [Hbr]; · iexact Hbr
    iexact Hbt
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's eight arrays, all unscoped: the three arguments, their three flat copies, the call's flat
    result and @main's result. -/
abbrev S8 : Finset (DevRef τ sig) := {r_a0, r_a1, r_a2, r_x, r_a, r_b, r_o, r_y}

omit [FloatOps F] in
theorem held_S8 (d : Dev nD) (W : Valuation τ sig (Elt F)) :
    (held (T d) S8 W : sProp 𝕄) = iprop(((SparseCore.T d).loc main_arg0 ↦{fullShare} W r_a0) ∗ ((SparseCore.T d).loc main_arg1 ↦{fullShare} W r_a1) ∗ ((SparseCore.T d).loc main_arg2 ↦{fullShare} W r_a2) ∗ ((SparseCore.T d).loc main_v0 ↦{fullShare} W r_x) ∗ ((SparseCore.T d).loc main_v1 ↦{fullShare} W r_a) ∗ ((SparseCore.T d).loc main_v2 ↦{fullShare} W r_b) ∗ ((SparseCore.T d).loc main_v3 ↦{fullShare} W r_o) ∗ ((SparseCore.T d).loc main_v4 ↦{fullShare} W r_y)) := by
  unfold held S8
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) S8 (V0 m d) := by
  rw [unscopedBufs_eq, held_S8]; rfl

theorem st0_eq (d : Dev nD) : (bigSep Finset.univ fun c : Fin ((K (F := F)).nCore 0) => (P m).st 0 d c) = stOf m d :=
  bigSep_univ_of_subsingleton (0 : Fin 1)
theorem dn0_eq (d : Dev nD) : (bigSep Finset.univ fun c : Fin ((K (F := F)).nCore 0) => (P m).dn 0 d c) = dnOf m d :=
  bigSep_univ_of_subsingleton (0 : Fin 1)

theorem h0sub : (op0 (F := F)).bufs ⊆ S8 := show ({r_a0, r_x} : Finset (DevRef τ sig)) ⊆ S8 by decide
theorem h1sub : (op1 (F := F)).bufs ⊆ S8 := show ({r_a1, r_a} : Finset (DevRef τ sig)) ⊆ S8 by decide
theorem h2sub : (op2 (F := F)).bufs ⊆ S8 := show ({r_a2, r_b} : Finset (DevRef τ sig)) ⊆ S8 by decide
theorem h4sub : (op4 (F := F)).bufs ⊆ S8 := show ({r_o, r_y} : Finset (DevRef τ sig)) ⊆ S8 by decide

abbrev S4 : Finset (DevRef τ sig) := {r_x, r_a, r_b, r_o}
abbrev SF : Finset (DevRef τ sig) := {r_a0, r_a1, r_a2, r_y}

omit [FloatOps F] in
theorem held_S4 (d : Dev nD) (W : Valuation τ sig (Elt F)) :
    (held (T d) S4 W : sProp 𝕄) = iprop((xLoc d ↦{fullShare} W r_x) ∗ (aLoc d ↦{fullShare} W r_a) ∗ (bLoc d ↦{fullShare} W r_b) ∗ oLoc d ↦{fullShare} W r_o) := by
  unfold held S4
  rw [SparseCore.bigSep_insert' (by decide), SparseCore.bigSep_insert' (by decide), SparseCore.bigSep_insert' (by decide), bigSep_singleton]

omit [FloatOps F] in
theorem held_SF (d : Dev nD) (W : Valuation τ sig (Elt F)) :
    (held (T d) SF W : sProp 𝕄) = iprop(((SparseCore.T d).loc main_arg0 ↦{fullShare} W r_a0) ∗ ((SparseCore.T d).loc main_arg1 ↦{fullShare} W r_a1)
      ∗ ((SparseCore.T d).loc main_arg2 ↦{fullShare} W r_a2) ∗ (SparseCore.T d).loc main_v4 ↦{fullShare} W r_y) := by
  unfold held SF
  rw [SparseCore.bigSep_insert' (by decide), SparseCore.bigSep_insert' (by decide), SparseCore.bigSep_insert' (by decide), bigSep_singleton]

/-- After the call the flat result holds the scaled input; after the last reshape @main's result holds it at its shape. -/
def V4 (d : Dev nD) : Valuation τ sig (Elt F) := Function.update (V3 m d) r_o (OA m d)
abbrev VF (d : Dev nD) : Valuation τ sig (Elt F) := (op4 (F := F)).result (V4 m d)

theorem V4_x (d : Dev nD) : V4 m d r_x = XA m d := Function.update_of_ne (show r_x ≠ r_o by decide) _ _
theorem V4_a (d : Dev nD) : V4 m d r_a = AA m d := Function.update_of_ne (show r_a ≠ r_o by decide) _ _
theorem V4_b (d : Dev nD) : V4 m d r_b = BA m d := Function.update_of_ne (show r_b ≠ r_o by decide) _ _
theorem V4_o (d : Dev nD) : V4 m d r_o = OA m d := Function.update_self _ _ _

theorem stOf_eq (d : Dev nD) : stOf m d = iprop((xLoc d ↦{fullShare} XA m d) ∗ (aLoc d ↦{fullShare} AA m d) ∗ (bLoc d ↦{fullShare} BA m d) ∗ ∃ f, oLoc d ↦{fullShare} f) := rfl
theorem dnOf_eq (d : Dev nD) : dnOf m d = iprop((xLoc d ↦{fullShare} XA m d) ∗ (aLoc d ↦{fullShare} AA m d) ∗ (bLoc d ↦{fullShare} BA m d) ∗ oLoc d ↦{fullShare} OA m d) := rfl

theorem hS4 : S4 ⊆ S8 := by decide
theorem hSF : SF ⊆ S8 := by decide

/-- What @main leaves the claim: the three arguments and the result, at the final valuation. -/
abbrev FIN (d : Dev nD) : sProp 𝕄 := held (T d) SF (VF m d)

/-- @main on device `d`'s TensorCore: three reshapes, the call (from the four flat arrays), the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0) (S := S8) h0sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S8) h1sub (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S8) h2sub (V := (op1 (F := F)).result ((op0 (F := F)).result (V0 m d)))) $$ [Hb Hheld]
  · isplitl [Hb]; · iexact Hb
    iexact Hheld
  iintro ⟨Hb, Hheld⟩
  rw [wp_ret]; imodintro
  -- the call: the four flat arrays to SparseCore 0 and back, the result at the scaled input
  ihave Hh := (Entails.of_eq (StableHlo.held_sub_split (SparseCore.T d) hS4 (V3 m d))) $$ Hheld
  icases Hh with ⟨H4, Hrest⟩
  ihave H4' := (Entails.of_eq (held_S4 (F := F) d (V3 m d))) $$ H4
  icases H4' with ⟨Hx, Ha, Hbb, Ho⟩
  iapply ((K (F := F)).wp_run (D (F := F)) 𝒱 (EH := EH) (P := P m) κ d 0) $$ [Hst Hx Ha Hbb Ho Hb Hrest]
  isplitr; · iexact Hctx
  isplitl [Hst]; · iexact Hst
  isplitl [Hx Ha Hbb Ho]
  · rw [st0_eq, stOf_eq]
    isplitl [Hx]; · iexact Hx
    isplitl [Ha]; · iexact Ha
    isplitl [Hbb]; · iexact Hbb
    iexists _; iexact Ho
  iintro ⟨Hst, Hdn⟩
  ihave Hdn' := (Entails.of_eq ((dn0_eq m d).trans (dnOf_eq m d))) $$ Hdn
  icases Hdn' with ⟨Hx, Ha, Hbb, Ho⟩
  ihave H4 := (Entails.of_eq (held_S4 (F := F) d (V4 m d)).symm) $$ [Hx Ha Hbb Ho]
  · rw [V4_x, V4_a, V4_b, V4_o]
    isplitl [Hx]; · iexact Hx
    isplitl [Ha]; · iexact Ha
    isplitl [Hbb]; · iexact Hbb
    iexact Ho
  ihave Hrest' := (Entails.of_eq (StableHlo.held_congr (SparseCore.T d) (S := S8 \ S4) (V := V3 m d) (V' := V4 m d) (fun b hb =>
    (Function.update_of_ne (fun e => by subst e; exact absurd hb (by decide)) _ _).symm))) $$ Hrest
  ihave Hheld := (Entails.of_eq (StableHlo.held_sub_split (SparseCore.T d) hS4 (V4 m d)).symm) $$ [H4 Hrest']
  · isplitl [H4] <;> iassumption
  iapply (wp_hlo_within 𝒱 (SparseCore.T d) none Set.univ (op := op4) (S := S8) h4sub (V := V4 m d)) $$ [Hb Hheld]
  · isplitl [Hb]; · iexact Hb
    iexact Hheld
  iintro ⟨Hb, Hheld⟩
  rw [wp_ret]; imodintro; imodintro
  isplitl [Hst]; · iexact Hst
  ihave Hh := (Entails.of_eq (StableHlo.held_sub_split (SparseCore.T d) hSF (VF m d))) $$ Hheld
  icases Hh with ⟨HF, -⟩
  iexact HF

def fq (d : Dev nD) (s' : Phys nD τ sig (Elt F)) : Prop :=
  s'.mem.mem ((SparseCore.T d).loc main_arg0) = VF m d r_a0 ∧ s'.mem.mem ((SparseCore.T d).loc main_arg1) = VF m d r_a1
    ∧ s'.mem.mem ((SparseCore.T d).loc main_arg2) = VF m d r_a2 ∧ s'.mem.mem ((SparseCore.T d).loc main_v4) = VF m d r_y

theorem hfin (d : Dev nD) (s' : Phys nD τ sig (Elt F)) : iprop(FIN m d ∗ SI s') ⊢ (⌜fq m d s'⌝ : sProp 𝕄) := by
  unfold FIN
  rw [held_SF]
  iintro ⟨⟨H0, H1, H2, Hy⟩, HSI⟩
  ihave H := (persistent_entails_right (SI_pointsTo_agree (st := s') (ℓ := (SparseCore.T d).loc main_arg0) (I := Finset.univ) (q := fullShare) (f := VF m d r_a0))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := VF m d r_a1))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := VF m d r_a2))) $$ [HSI H2]
  · isplitl [HSI] <;> iassumption
  icases H with ⟨%h2, HSI, -⟩
  ihave H := (SI_pointsTo_agree (st := s') (ℓ := (SparseCore.T d).loc main_v4) (I := Finset.univ) (q := fullShare) (f := VF m d r_y)) $$ [HSI Hy]
  · isplitl [HSI] <;> iassumption
  icases H with %hy
  ipureintro
  exact ⟨funext fun i => h0 i (Finset.mem_univ i), funext fun i => h1 i (Finset.mem_univ i), funext fun i => h2 i (Finset.mem_univ i),
    funext fun i => hy i (Finset.mem_univ i)⟩

/-! ## The program's run -/

def QC : PUnit × MemSt nD τ sig (Elt F) → Prop := fun r => ∀ c : Dev nD,
  r.2.mem ((SparseCore.T c).loc main_arg0) = VF m c r_a0 ∧ r.2.mem ((SparseCore.T c).loc main_arg1) = VF m c r_a1
    ∧ r.2.mem ((SparseCore.T c).loc main_arg2) = VF m c r_a2 ∧ r.2.mem ((SparseCore.T c).loc main_v4) = VF m c r_y

/-- Every weakly fair execution of the device's threads terminates, nothing faulting, with the three arguments and
    the result at the final valuation. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The final valuation read back -/

/-- The arguments end as they began. -/
theorem VF_a0 (d : Dev nD) : VF m d r_a0 = m ((SparseCore.T d).loc main_arg0) := by
  show (op4 (F := F)).result (V4 m d) (Proc.devRef .tc main_arg0) = _
  rw [StableHlo.reshape_result_ne]; rotate_left; decide
  unfold V4
  rw [Function.update_of_ne (show r_a0 ≠ r_o by decide)]
  show (op2 (F := F)).result ((op1 (F := F)).result ((op0 (F := F)).result (V0 m d))) (Proc.devRef .tc main_arg0) = _
  rw [StableHlo.reshape_result_ne]; rotate_left; decide
  rw [StableHlo.reshape_result_ne]; rotate_left; decide
  rw [StableHlo.reshape_result_ne]; rotate_left; decide
  rfl
theorem VF_a1 (d : Dev nD) : VF m d r_a1 = m ((SparseCore.T d).loc main_arg1) := by
  show (op4 (F := F)).result (V4 m d) (Proc.devRef .tc main_arg1) = _
  rw [StableHlo.reshape_result_ne]; rotate_left; decide
  unfold V4
  rw [Function.update_of_ne (show r_a1 ≠ r_o by decide)]
  show (op2 (F := F)).result ((op1 (F := F)).result ((op0 (F := F)).result (V0 m d))) (Proc.devRef .tc main_arg1) = _
  rw [StableHlo.reshape_result_ne]; rotate_left; decide
  rw [StableHlo.reshape_result_ne]; rotate_left; decide
  rw [StableHlo.reshape_result_ne]; rotate_left; decide
  rfl
theorem VF_a2 (d : Dev nD) : VF m d r_a2 = m ((SparseCore.T d).loc main_arg2) := by
  show (op4 (F := F)).result (V4 m d) (Proc.devRef .tc main_arg2) = _
  rw [StableHlo.reshape_result_ne]; rotate_left; decide
  unfold V4
  rw [Function.update_of_ne (show r_a2 ≠ r_o by decide)]
  show (op2 (F := F)).result ((op1 (F := F)).result ((op0 (F := F)).result (V0 m d))) (Proc.devRef .tc main_arg2) = _
  rw [StableHlo.reshape_result_ne]; rotate_left; decide
  rw [StableHlo.reshape_result_ne]; rotate_left; decide
  rw [StableHlo.reshape_result_ne]; rotate_left; decide
  rfl

/-- @main's result is the flat result at its shape. -/
theorem VF_y (d : Dev nD) : VF m d r_y = fun i => shapeCast S16384x1 (OA m d) shapeCasts_S16384_S16384x1 i := by
  show (op4 (F := F)).result (V4 m d) (Proc.devRef .tc main_v4) = _
  rw [StableHlo.reshape_result]
  show (fun i => shapeCast S16384x1 (V4 m d r_o) shapeCasts_S16384_S16384x1 i) = _
  rw [V4_o]

omit [FloatOps F] in
/-- The flat input and weights are the arguments at their flat shapes. -/
theorem XA_eq (d : Dev nD) : XA m d = fun i => shapeCast S16384 (m ((SparseCore.T d).loc main_arg0)) shapeCasts_S16384x1_S16384 i := by
  show (op2 (F := F)).result ((op1 (F := F)).result ((op0 (F := F)).result (V0 m d))) (Proc.devRef .tc main_v0) = _
  rw [StableHlo.reshape_result_ne]; rotate_left; decide
  rw [StableHlo.reshape_result_ne]; rotate_left; decide
  rw [StableHlo.reshape_result]
  rfl
omit [FloatOps F] in
theorem AA_eq (d : Dev nD) : AA m d = fun i => shapeCast S10 (m ((SparseCore.T d).loc main_arg1)) shapeCasts_S10x1_S10 i := by
  show (op2 (F := F)).result ((op1 (F := F)).result ((op0 (F := F)).result (V0 m d))) (Proc.devRef .tc main_v1) = _
  rw [StableHlo.reshape_result_ne]; rotate_left; decide
  rw [StableHlo.reshape_result]
  rw [StableHlo.reshape_result_ne]; rotate_left; decide
  rfl
omit [FloatOps F] in
theorem BA_eq (d : Dev nD) : BA m d = fun i => shapeCast S10 (m ((SparseCore.T d).loc main_arg2)) shapeCasts_S1x10_S10 i := by
  show (op2 (F := F)).result ((op1 (F := F)).result ((op0 (F := F)).result (V0 m d))) (Proc.devRef .tc main_v2) = _
  rw [StableHlo.reshape_result]
  rw [StableHlo.reshape_result_ne]; rotate_left; decide
  rw [StableHlo.reshape_result_ne]; rotate_left; decide
  rfl

/-- The run read at the claim's arrays: the result named, the arguments unchanged. -/
theorem run_val [∀ e, Nonempty (Elt F e)] :
    θ_run (Cert.Kernel.defs (F := F)) (Cert.Kernel.threads (F := F)) ⟨m, fun _ => 0, ρ⟩ fun r => ∀ c : Dev nD,
      r.2.mem ((SparseCore.T c).loc main_v4) = (fun i => shapeCast S16384x1 (OA m c) shapeCasts_S16384_S16384x1 i)
      ∧ r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2) :=
  (θ_run _ _ _).mono (fun _ h c => ⟨(h c).2.2.2.trans (VF_y m c), (h c).1.trans (VF_a0 m c), (h c).2.1.trans (VF_a1 m c), (h c).2.2.1.trans (VF_a2 m c)⟩)
    (run_main m ρ)

end Cert.Proof.BitsSide

end
-- ==== Proof.Ideal.Setup.lean ====
/-
  The kernel program as the SparseCore launch theorem sees it: one vector-subcore call on SparseCore 0's
  sixteen tiles; the ghost state is the launch handshakes' rounds beside the local transfers' counters
  (every copy of the kernel is issued and awaited by one tile on a semaphore of its own).
  The four HBM arrays of the call: the flat input (16384 words), the two flat weight vectors (10 words
  each) and the flat result.
-/
import proofs.«212145_g27582279975355_cont_9to1_2260_10_alg».proof.Defs
import Idealize.ShloMosaic.Lib.SparseCore.Launch
import Idealize.ShloMosaic.Lib.StableHlo.Run
import Idealize.ShloMosaic.Lib.Pipeline.Kit
import Idealize.ShloMosaic.Lib.Tactic
import proofs.«212145_g27582279975355_cont_9to1_2260_10_alg».proof.Proof.Gen.KernelIdeal
import proofs.«212145_g27582279975355_cont_9to1_2260_10_alg».proof.Proof.Gen.KernelIdeal.Skeleton

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev MM (F : FTy → Type) : Type := MT nD τ sig (HIx 1) (Elt F) ℕ UU ℕ

abbrev EH : Emb UH (MT nD τ sig (HIx 1) (Elt F) ℕ UU ℕ) := embL

/-! ## The four arrays of the call, as locations of device `d` -/

abbrev xLoc (d : Dev nD) : Loc nD τ sig := (SparseCore.T d).loc main_v0
abbrev aLoc (d : Dev nD) : Loc nD τ sig := (SparseCore.T d).loc main_v1
abbrev bLoc (d : Dev nD) : Loc nD τ sig := (SparseCore.T d).loc main_v2
abbrev oLoc (d : Dev nD) : Loc nD τ sig := (SparseCore.T d).loc main_v3

/-- The arrays as a tile's memrefs name them (the body table's spelling). -/
abbrev xV : Memref sig .scVector .hbm S16384 .f32 := Memref.whole main_v0_scv
abbrev aV : Memref sig .scVector .hbm S10 .f32 := Memref.whole main_v1_scv
abbrev bV : Memref sig .scVector .hbm S10 .f32 := Memref.whole main_v2_scv
abbrev oV : Memref sig .scVector .hbm S16384 .f32 := Memref.whole main_v3_scv
/-- A tile's scratch: its 1024-word chunk and the two 16-word weight registers' staging. -/
abbrev sX : Memref sig .scVector .vmem S1024 .f32 := Memref.whole cc0_scratch0
abbrev sA : Memref sig .scVector .vmem S16 .f32 := Memref.whole cc0_scratch1
abbrev sB : Memref sig .scVector .vmem S16 .f32 := Memref.whole cc0_scratch2

end Cert.Proof.IdealSide

end
-- ==== Proof.Ideal.Scale.lean ====
/-
  The arithmetic of one tile, for any float values: the kernel folds the two weight vectors into ONE scalar,
  the sum over j of b_j · a_{π j} for the fixed rearrangement π = (6, 7, 8, 9, 0, 1, 5, 2, 3, 4) taken from
  the left, and multiplies every word of its chunk by it. Here that scalar as a function of the first ten
  lanes of the two loaded 16-lane vectors, and the stored 16-lane payload lane by lane.
-/
import proofs.«212145_g27582279975355_cont_9to1_2260_10_alg».proof.Proof.Ideal.Setup
import Idealize.ShloMosaic.Lib.Pipeline.Value
import Idealize.ShloMosaic.Lib.ValueIdx

noncomputable section

namespace Cert.Proof.IdealSide

open Cert.KernelIdeal Cert.KernelIdeal.Gen
open Idealize.ShloMosaic Idealize.ShloMosaic.ValueIdx

variable {F : FTy → Type} [FloatOps F]

/-- Lane `k` of a 16-lane vector, as the one-element slice at offset `k` read at its only position. -/
theorem pick {α : Type} (v : S16.Idx → α) (k : ℕ) (hs : S16.Slices ![k] S1) (hp : ∀ a, (![0] : Fin 1 → ℕ) a < S1.size a) (hk : k < 16) :
    extractAt ![0] (extractStridedSlice S1 ![k] v hs) hp = v (ix1 (⟨k, hk⟩ : Fin 16)) := by
  unfold extractAt extractStridedSlice
  exact congrArg v (funext fun a => match a with | ⟨0, _⟩ => rfl)

/-- The scale: b₀a₆ + b₁a₇ + b₂a₈ + b₃a₉ + b₄a₀ + b₅a₁ + b₆a₅ + b₇a₂ + b₈a₃ + b₉a₄, summed from the left. -/
def scaleOf (a b : Fin 10 → F .f32) : F .f32 :=
  Scalar.addf (Scalar.addf (Scalar.addf (Scalar.addf (Scalar.addf (Scalar.addf (Scalar.addf (Scalar.addf (Scalar.addf
    (Scalar.mulf (b 0) (a 6)) (Scalar.mulf (b 1) (a 7))) (Scalar.mulf (b 2) (a 8))) (Scalar.mulf (b 3) (a 9)))
    (Scalar.mulf (b 4) (a 0))) (Scalar.mulf (b 5) (a 1))) (Scalar.mulf (b 6) (a 5))) (Scalar.mulf (b 7) (a 2)))
    (Scalar.mulf (b 8) (a 3))) (Scalar.mulf (b 9) (a 4))

/-- The first ten lanes of a 16-lane vector. -/
def lanes10 (v : Vec F S16 .f32) : Fin 10 → F .f32 := fun k => v (ix1 (⟨k.val, by omega⟩ : Fin 16))

/-- What a trip stores: lane by lane the loaded word times the scale of the two loaded weight vectors. -/
theorem pay_apply (v13 v15 v83 : Vec F S16 .f32) (i : S16.Idx) :
    k0_pay1 (k0_pay2 v13) (k0_pay3 v15) (k0_pay4 v13 v15) (k0_pay5 v15) v83 i
      = FloatOps.mulf (v83 i) (scaleOf (lanes10 v13) (lanes10 v15)) := by
  unfold k0_pay1 k0_pay4 k0_pay5 k0_pay2 k0_pay3
  simp (disch := decide) only [shapeCast_self, pick]
  rfl

end Cert.Proof.IdealSide

end
-- ==== Proof.Ideal.Chunk.lean ====
/-
  The index arithmetic of one tile's chunk. A trip rewrites words 16k … 16k+15 of the 1024-word scratch with
  their multiples, so before trip k the words below 16k are scaled and the others untouched; the two weight
  scratches hold the ten fetched words in lanes 0 … 9; and word y of the tile's chunk is word (base + y) of the
  flat array, so that a chunk written from the scaled scratch agrees there with the whole scaled array.
-/
import proofs.«212145_g27582279975355_cont_9to1_2260_10_alg».proof.Proof.Ideal.Scale
import Idealize.ShloMosaic.Lib.WritesUnit
import Idealize.ShloMosaic.Lib.Exec

noncomputable section

namespace Cert.Proof.IdealSide

open Cert.KernelIdeal Cert.KernelIdeal.Gen
open Idealize.ShloMosaic Idealize.ShloMosaic.ValueIdx
open Idealize.ShloMosaic.SparseCore (S V T)

variable {F : FTy → Type} [FloatOps F]

/-- The tile's 1024-word chunk of a flat 16384-word array, as the body slices it. -/
abbrev chunkR (L : grid0.Coords) : Rect S16384 := Rect.unit (s := S16384) (k0_off1 L) S1024.size (k0_off1_inb L)
abbrev xCh (L : grid0.Coords) : Memref sig .scVector .hbm S1024 .f32 := (xV).slice (chunkR L) (fun _ => rfl)
abbrev oCh (L : grid0.Coords) : Memref sig .scVector .hbm S1024 .f32 := (oV).slice (chunkR L) (fun _ => rfl)
/-- The chunk's elements. -/
abbrev chunkSet (L : grid0.Coords) : Finset S16384.Idx := (chunkR L).set

/-- The scaling loop makes 64 trips. -/
theorem trips_eq : Scf.trips k0_t1_loop.lb k0_t1_loop.ub k0_t1_loop.st = 64 := by decide

/-- One trip's store read back: the sixteen words at `16 k` are now scaled, the others as they were. -/
theorem step_fact (pay : Vec F S16 .f32 → FVec F S16 .f32) (c : F .f32)
    (hpay : ∀ (v83 : Vec F S16 .f32) (i : S16.Idx), pay v83 i = FloatOps.mulf (v83 i) c)
    (x0 : S1024.Idx → F .f32) (k : Fin k0_t1_loop.trips)
    (f : (sX).view.ty.Contents (Elt F))
    (hf : ∀ y : S1024.Idx, f y = if (y 0).val < 16 * k.val then FloatOps.mulf (x0 y) c else x0 y) (y : S1024.Idx) :
    (sX).view.writes (Elt F) f [⟨Rect.unit (s := S1024) (k0_off2 k) S16.size (k0_off2_inb k),
        pay (View.readAt (Elt F) (sX).view (Rect.unit (s := S1024) (k0_off2 k) S16.size (k0_off2_inb k)).toLoadRect f)⟩] y
      = if (y 0).val < 16 * (k.val + 1) then FloatOps.mulf (x0 y) c else x0 y := by
  have hoff : k0_off2 k = ![16 * k.val] := k0_off2_eq k
  refine (View.read_writes_cons_unit (sX).view f (k0_off2_inb k) _ [] y hoff).trans ?_
  by_cases h : ∀ a : Fin S1024.rank, (![16 * k.val] : Fin 1 → ℕ) a ≤ (y a).val ∧ (y a).val < (![16 * k.val] : Fin 1 → ℕ) a + S16.size a
  · rw [dif_pos h, hpay, View.readAt_apply]
    have h0 : 16 * k.val ≤ (y 0).val ∧ (y 0).val < 16 * k.val + 16 := h 0
    have hidx : (Rect.unit (s := S1024) (k0_off2 k) S16.size (k0_off2_inb k)).toLoadRect.idx (Rect.unitLocal (s := S1024) (off := ![16 * k.val]) (size := S16.size) y h) = y := by
      funext a; apply Fin.ext
      rw [LoadRect.idx_apply]
      obtain rfl : a = 0 := Subsingleton.elim _ _
      show k0_off2 k 0 + 1 * ((y 0).val - (![16 * k.val] : Fin 1 → ℕ) 0) = (y 0).val
      rw [hoff]; show 16 * k.val + 1 * ((y 0).val - 16 * k.val) = _; omega
    rw [hidx]
    show FloatOps.mulf (f y) c = _
    rw [hf y, if_neg (by omega), if_pos (by omega)]
  · rw [dif_neg h]
    show f y = _
    rw [hf y]
    have h0 : ¬ (16 * k.val ≤ (y 0).val ∧ (y 0).val < 16 * k.val + 16) := fun hh => h (fun a => by
      obtain rfl : a = 0 := Subsingleton.elim _ _; exact hh)
    by_cases h1 : (y 0).val < 16 * k.val
    · rw [if_pos h1, if_pos (by omega)]
    · rw [if_neg h1, if_neg (by omega)]

/-- A 16-word scratch whose first ten words were fetched holds them in its first ten lanes. -/
theorem lanes_fetched {κ : Kind} {sp : Space} (v : View sig κ sp S16 .f32) (fa : v.ty.Contents (Elt F))
    (w : (Rect.unit (s := S16) ![0] S10.size inb_S16_S10_0).shape.Idx → F .f32) :
    lanes10 (View.readAt (Elt F) v (Rect.unit (s := S16) ![0] S16.size inb_S16_S16_0).toLoadRect
      (v.writes (Elt F) fa [⟨Rect.unit ![0] S10.size inb_S16_S10_0, w⟩])) = fun k => w (ix1 k) := by
  funext k
  unfold lanes10
  rw [View.readAt_apply]
  have hidx : (Rect.unit (s := S16) ![0] S16.size inb_S16_S16_0).toLoadRect.idx (ix1 (⟨k.val, by omega⟩ : Fin 16)) = ix1 (⟨k.val, by omega⟩ : Fin 16) := by
    funext a; apply Fin.ext
    rw [LoadRect.idx_apply]
    obtain rfl : a = 0 := Subsingleton.elim _ _
    show 0 + 1 * k.val = k.val
    omega
  rw [hidx]
  exact View.read_writes_cons_unit_of_mem v fa inb_S16_S10_0 w [] (ix1 (⟨k.val, by omega⟩ : Fin 16)) (ix1 k) rfl (fun a => by
    obtain rfl : a = 0 := Subsingleton.elim _ _
    show k.val = 0 + k.val
    omega)

/-- The chunk written whole from a scratch that holds the scaled words agrees, on the chunk's elements, with the
    scaled array. -/
theorem out_fact (L : grid0.Coords) (X : S16384.Idx → F .f32) (c : F .f32) (fo : (oCh L).view.ty.Contents (Elt F))
    (f : S1024.Idx → F .f32) (hf : ∀ y : S1024.Idx, f y = FloatOps.mulf (X ((chunkR L).emb y)) c) :
    ∀ n ∈ chunkSet L, ((oCh L).view.writes (Elt F) fo [⟨Rect.whole S1024, f⟩]) n = FloatOps.mulf (X n) c := by
  intro n hn
  have hn' : n ∈ Finset.univ.map (chunkR L).emb := by rw [Rect.map_emb_univ]; exact hn
  obtain ⟨j, -, rfl⟩ := Finset.mem_map.mp hn'
  have h := congrFun (View.read_writes_whole (oCh L).view fo f) j
  rw [View.read_apply, cast_eq] at h
  exact h.trans (hf j)

end Cert.Proof.IdealSide

end
-- ==== Proof.Ideal.Tile.lean ====
/-
  One tile's task. Tile i of SparseCore 0 fetches words 1024 i … 1024 i + 1023 of the flat input and the two
  ten-word weight vectors into its own scratch (three copies on three semaphores of its own, each awaited
  before its destination is read), folds the weights into one scalar, multiplies its chunk by it sixteen words
  a trip, and copies the chunk out to the same words of the flat result. From the tile's chunk of the input,
  a read share of each weight vector and its chunk of the result, the task ends with the same and its chunk
  of the result at the input's words times the scale; its scratch and semaphores are returned as found.
-/
import proofs.«212145_g27582279975355_cont_9to1_2260_10_alg».proof.Proof.Ideal.Chunk

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

local notation "𝕄" => MT nD τ sig (HIx 1) (Elt F) ℕ UU ℕ

section Tile

variable (d : Dev nD) (L : grid0.Coords)

abbrev cV (L : grid0.Coords) : Fin τ.nSC := (L 0).castLE hcore0
abbrev jV (L : grid0.Coords) : Fin τ.nSub := (L 1).castLE hsub0

theorem set_xCh : (xCh L).view.set = chunkSet L := by
  show ((View.whole (main_v0_scv : Ref sig .scVector)).slice (chunkR L)).set = _
  rw [View.set_slice]; exact Finset.map_refl
theorem set_oCh : (oCh L).view.set = chunkSet L := by
  show ((View.whole (main_v3_scv : Ref sig .scVector)).slice (chunkR L)).set = _
  rw [View.set_slice]; exact Finset.map_refl

abbrev cXcell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scratch4.sem)
abbrev cBcell (d : Dev nD) (c : Fin τ.nSC) (i : Fin τ.nSub) : GSem nD τ sig := (V d c i, .dma cc0_scratch5.sem)
abbrev cOcell (d : Dev nD) (c : Fin τ.nSC) (i : Fin τ.nSub) : GSem nD τ sig := (V d c i, .dma cc0_scoped0.sem)

/-- The arrays as the tile's memrefs address them are the device's arrays. -/
theorem pts_xCh (f : Buf (Elt F) (xLoc d)) :
    ((xCh L).view.loc (V d (cV L) (jV L)) ↦[(xCh L).view.set]{fullShare} f : sProp 𝕄) = xLoc d ↦[chunkSet L]{fullShare} f := by
  rw [set_xCh]
theorem pts_oCh (f : Buf (Elt F) (oLoc d)) :
    ((oCh L).view.loc (V d (cV L) (jV L)) ↦[(oCh L).view.set]{fullShare} f : sProp 𝕄) = oLoc d ↦[chunkSet L]{fullShare} f := by
  rw [set_oCh]
theorem pts_aV (q : PosShare TreeShare) (f : Buf (Elt F) (aLoc d)) :
    ((aV).view.loc (V d (cV L) (jV L)) ↦{q} f : sProp 𝕄) = aLoc d ↦{q} f := rfl
theorem pts_bV (q : PosShare TreeShare) (f : Buf (Elt F) (bLoc d)) :
    ((bV).view.loc (V d (cV L) (jV L)) ↦{q} f : sProp 𝕄) = bLoc d ↦{q} f := rfl
theorem pts_sX (f : Buf (Elt F) ((V d (cV L) (jV L)).loc cc0_scratch0)) :
    ((sX).view.loc (V d (cV L) (jV L)) ↦{fullShare} f : sProp 𝕄) = (V d (cV L) (jV L)).loc cc0_scratch0 ↦{fullShare} f := rfl
theorem pts_sA (f : Buf (Elt F) ((V d (cV L) (jV L)).loc cc0_scratch1)) :
    ((sA).view.loc (V d (cV L) (jV L)) ↦{fullShare} f : sProp 𝕄) = (V d (cV L) (jV L)).loc cc0_scratch1 ↦{fullShare} f := rfl
theorem pts_sB (f : Buf (Elt F) ((V d (cV L) (jV L)).loc cc0_scratch2)) :
    ((sB).view.loc (V d (cV L) (jV L)) ↦{fullShare} f : sProp 𝕄) = (V d (cV L) (jV L)).loc cc0_scratch2 ↦{fullShare} f := rfl

/-- The tile's four DMA semaphores are among its own cells. -/
theorem ownSems0_V :
    (ownSems0 (V d (cV L) (jV L)) : sProp 𝕄)
      = iprop(semVal (cXcell d (cV L) (jV L)) 0 ∗ semVal (cAcell d (cV L) (jV L)) 0 ∗ semVal (cBcell d (cV L) (jV L)) 0 ∗ semVal (cOcell d (cV L) (jV L)) 0
          ∗ bigSep (((((ownCells (V d (cV L) (jV L))).erase (cXcell d (cV L) (jV L))).erase (cAcell d (cV L) (jV L))).erase (cBcell d (cV L) (jV L))).erase (cOcell d (cV L) (jV L)))
              fun g => semVal g 0) := by
  unfold SparseCore.Cfg.ownSems0
  rw [SparseCore.bigSep_erase' ((mem_ownCells (g := cXcell d (cV L) (jV L))).mpr ⟨rfl, by
      show (SemLoc.dma cc0_scratch3.sem : SemLoc sig).isScoped .scVector = true; decide⟩),
    SparseCore.bigSep_erase' (Finset.mem_erase.mpr ⟨by simp [cXcell, cAcell]; decide, (mem_ownCells (g := cAcell d (cV L) (jV L))).mpr ⟨rfl, by
      show (SemLoc.dma cc0_scratch4.sem : SemLoc sig).isScoped .scVector = true; decide⟩⟩),
    SparseCore.bigSep_erase' (Finset.mem_erase.mpr ⟨by simp [cAcell, cBcell]; decide, Finset.mem_erase.mpr ⟨by simp [cXcell, cBcell]; decide,
      (mem_ownCells (g := cBcell d (cV L) (jV L))).mpr ⟨rfl, by show (SemLoc.dma cc0_scratch5.sem : SemLoc sig).isScoped .scVector = true; decide⟩⟩⟩),
    SparseCore.bigSep_erase' (Finset.mem_erase.mpr ⟨by simp [cBcell, cOcell]; decide, Finset.mem_erase.mpr ⟨by simp [cAcell, cOcell]; decide,
      Finset.mem_erase.mpr ⟨by simp [cXcell, cOcell]; decide,
      (mem_ownCells (g := cOcell d (cV L) (jV L))).mpr ⟨rfl, by show (SemLoc.dma cc0_scoped0.sem : SemLoc sig).isScoped .scVector = true; decide⟩⟩⟩⟩)]

/-- The three scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

/-- What the call leaves in the result array, for any float values: every word of the input times the scale. -/
def outOf (X : Buf (Elt F) (xLoc d)) (A : Buf (Elt F) (aLoc d)) (B : Buf (Elt F) (bLoc d)) : Buf (Elt F) (oLoc d) :=
  fun n => FloatOps.mulf (X n) (scaleOf (fun k => A (ix1 k)) (fun k => B (ix1 k)))

/-- Before trip `k` of the scaling loop the chunk scratch holds the scaled words below `16 k` and the fetched words
    from there on. -/
def inv (x0 : S1024.Idx → F .f32) (c : F .f32) (k : ℕ) (_ : Unit) : sProp 𝕄 :=
  iprop(∃ f : Buf (Elt F) ((sX).view.loc (V d (cV L) (jV L))), ((sX).view.loc (V d (cV L) (jV L)) ↦{fullShare} f)
    ∗ ⌜∀ y : S1024.Idx, f y = if (y 0).val < 16 * k then FloatOps.mulf (x0 y) c else x0 y⌝)

/-- One trip: sixteen words loaded, scaled, stored back where they were. -/
theorem trip (v14 v16 : FVec F S16 .f32) (v39 : F .f32) (v40 : FVec F S1 .f32) (c : F .f32)
    (hpay : ∀ (v83 : Vec F S16 .f32) (i : S16.Idx), k0_pay1 v14 v16 v39 v40 v83 i = FloatOps.mulf (v83 i) c)
    (x0 : S1024.Idx → F .f32) (k : Fin k0_t1_loop.trips) (acc : Unit) :
    inv d L x0 c k.val acc ⊢ wp frame (wpE (defs₀ (F := F)) 𝒱₀ (V d (cV L) (jV L)) none) Set.univ
      (k0_t1_body L xV (Memref.isWhole_whole _) aV (Memref.isWhole_whole _) bV (Memref.isWhole_whole _) oV (Memref.isWhole_whole _)
        sX (Memref.isWhole_whole _) sA (Memref.isWhole_whole _) sB (Memref.isWhole_whole _) cc0_scratch3 cc0_scratch4 cc0_scratch5 cc0_scoped0
        v14 v16 v39 v40 k acc) (inv d L x0 c (k.val + 1)) := by
  unfold inv k0_t1_body
  iintro ⟨%f, Hsx, %hf⟩
  sl_exec
  sl_step
  iexists _; isplitl [Hsx]; · iexact Hsx
  ipureintro
  intro y
  exact step_fact (k0_pay1 v14 v16 v39 v40) c hpay x0 k f hf y

theorem tile_body (hF : (K (F := F)).Facts) (O : CellTallies nD τ sig (HIx 1)) (W : Waits sig (HIx 1)) (hO : ∀ g, O g none = 0)
    (X : Buf (Elt F) (xLoc d)) (A : Buf (Elt F) (aLoc d)) (B : Buf (Elt F) (bLoc d))
    (q : PosShare TreeShare) :
    iprop(levAts (K (F := F)).L (K (F := F)).lev ∗ emp
        ∗ ((xLoc d ↦[chunkSet L]{fullShare} X) ∗ (aLoc d ↦{q} A) ∗ (bLoc d ↦{q} B) ∗ ∃ fo, oLoc d ↦[chunkSet L]{fullShare} fo)
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__sc_net L xV (Memref.isWhole_whole _) aV (Memref.isWhole_whole _) bV (Memref.isWhole_whole _) oV (Memref.isWhole_whole _)
            sX (Memref.isWhole_whole _) sA (Memref.isWhole_whole _) sB (Memref.isWhole_whole _) cc0_scratch3 cc0_scratch4 cc0_scratch5 cc0_scoped0)
          fun _ => iprop(((xLoc d ↦[chunkSet L]{fullShare} X) ∗ (aLoc d ↦{q} A) ∗ (bLoc d ↦{q} B) ∗ (oLoc d ↦[chunkSet L]{fullShare} outOf d X A B))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_net_eq_skeleton]; unfold cc0__sc_net_skel
  rw [(K (F := F)).scopedBufs_V hF d (cV L) (jV L), SparseCore.Cfg.scopedSems0_V (Val := Elt F) d (cV L) (jV L), ownSems0_V, ownBufs_V]
  iintro ⟨#Hlv, -, ⟨Hx, Ha, Hb, ⟨%fo, Ho⟩⟩, ⟨⟨%fx, Hsx⟩, ⟨%fa, Hsa⟩, ⟨%fb, Hsb⟩, Hbufs⟩, ⟨HsemX, HsemA, HsemB, HsemO, Hsems⟩, HO⟩
  ihave Hmw := ((K (F := F)).mayWaits_none (thr := V d (cV L) (jV L)) hO) $$ Hlv
  ihave Hx' := (Entails.of_eq (pts_xCh (F := F) d L _).symm) $$ Hx
  ihave Ho' := (Entails.of_eq (pts_oCh (F := F) d L _).symm) $$ Ho
  ihave Ha' := (Entails.of_eq (pts_aV (F := F) d L q _).symm) $$ Ha
  ihave Hb' := (Entails.of_eq (pts_bV (F := F) d L q _).symm) $$ Hb
  ihave Hsx' := (Entails.of_eq (pts_sX (F := F) d L _).symm) $$ Hsx
  ihave Hsa' := (Entails.of_eq (pts_sA (F := F) d L _).symm) $$ Hsa
  ihave Hsb' := (Entails.of_eq (pts_sB (F := F) d L _).symm) $$ Hsb
  sl_exec
  -- the loaded weight vectors' first ten lanes are the fetched vectors; what a trip stores is the loaded words times the scale
  have hpay : ∀ (v83 : Vec F S16 .f32) (i : S16.Idx),
      k0_pay1 (tile_body.sl.r d L A fa) (tile_body.sl.r_1 d L B fb) (tile_body.sl.r_2 d L A B fa fb) (tile_body.sl.r_3 d L B fb) v83 i
        = FloatOps.mulf (v83 i) (scaleOf (fun k => A (ix1 k)) (fun k => B (ix1 k))) := by
    intro v83 i
    have h := pay_apply (F := F)
      (View.readAt (Elt F) (sA).view (Rect.unit (s := S16) ![0] S16.size inb_S16_S16_0).toLoadRect
        ((sA).view.writes (Elt F) fa [⟨Rect.unit ![0] S10.size inb_S16_S10_0, tile_body.sl.dma0_1 d A⟩]))
      (View.readAt (Elt F) (sB).view (Rect.unit (s := S16) ![0] S16.size inb_S16_S16_0).toLoadRect
        ((sB).view.writes (Elt F) fb [⟨Rect.unit ![0] S10.size inb_S16_S10_0, tile_body.sl.dma0_2 d B⟩])) v83 i
    rw [lanes_fetched, lanes_fetched] at h
    exact h
  sl_for (inv d L (tile_body.sl.dma0 d L X) (scaleOf (fun k => A (ix1 k)) (fun k => B (ix1 k)))) $$ [Hsx']
  case region =>
    intro k acc
    exact trip d L _ _ _ _ _ hpay _ k acc
  · unfold inv
    iexists _; isplitl [Hsx']; · iexact Hsx'
    ipureintro
    intro y
    rw [if_neg (by omega)]
    exact congrFun (View.write_whole_univ (cc0_scratch0 : Ref sig .scVector) fx (tile_body.sl.dma0 d L X)) y
  iintro %_ HI
  unfold inv
  icases HI with ⟨%f, Hsx, %hf⟩
  sl_exec
  sl_step
  -- every word of the scratch is scaled after the last trip; the chunk of the result written from it is the scaled chunk
  have hf' : ∀ y : S1024.Idx, tile_body.sl.dma0_3 d L f y
      = FloatOps.mulf (X ((chunkR L).emb y)) (scaleOf (fun k => A (ix1 k)) (fun k => B (ix1 k))) := by
    intro y
    have h := hf y
    rw [trips_eq, if_pos (show (y 0).val < 16 * 64 from (y 0).isLt)] at h
    exact h
  have hcongr := out_fact (F := F) L X (scaleOf (fun k => A (ix1 k)) (fun k => B (ix1 k))) fo (tile_body.sl.dma0_3 d L f) hf'
  ihave Ho2 := (Entails.of_eq (pts_oCh (F := F) d L _)) $$ Ho'
  ihave Ho3 := (Entails.of_eq (pointsTo_congr (g := outOf d X A B) hcongr)) $$ Ho2
  ihave Hx2 := (Entails.of_eq (pts_xCh (F := F) d L _)) $$ Hx'
  isplitl [Hx2 Ha' Hb' Ho3]
  · isplitl [Hx2]; · iexact Hx2
    isplitl [Ha']; · iexact Ha'
    isplitl [Hb']; · iexact Hb'
    iexact Ho3
  isplitl [Hsx Hsa' Hsb' Hbufs]
  · isplitl [Hsx]; · iexists _; iexact Hsx
    isplitl [Hsa']; · iexists _; iexact Hsa'
    isplitl [Hsb']; · iexists _; iexact Hsb'
    iexact Hbufs
  isplitl [HsemX HsemA HsemB HsemO Hsems]
  · isplitl [HsemX]; · iexact HsemX
    isplitl [HsemA]; · iexact HsemA
    isplitl [HsemB]; · iexact HsemB
    isplitl [HsemO]; · iexact HsemO
    iexact Hsems
  iexists (insert (SemLoc.dma cc0_scoped0.sem, (default : HIx 1)) (insert (SemLoc.dma cc0_scratch3.sem, (default : HIx 1))
    (insert (SemLoc.dma cc0_scratch5.sem, (default : HIx 1)) (insert (SemLoc.dma cc0_scratch4.sem, (default : HIx 1)) W)))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.IdealSide

end
-- ==== Proof.Ideal.Launch.lean ====
/-
  The launch of the one SparseCore call. The TensorCore hands SparseCore 0 the four flat arrays whole — the
  input, the two weight vectors and the result —; its sequencer deals tile i words 1024 i … 1024 i + 1023 of
  the input and of the result and one read share of each weight vector; the sixteen tiles' chunks tile the
  16384 words, so what comes back is the input and the weights as they were and the result at every word
  the input's word times the scale.
-/
import proofs.«212145_g27582279975355_cont_9to1_2260_10_alg».proof.Proof.Ideal.Tile

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic Idealize.ShloMosaic.ValueIdx

variable {F : FTy → Type}

local notation "𝕄" => MT nD τ sig (HIx 1) (Elt F) ℕ UU ℕ

/-! ## The sixteen chunks tile the flat array -/

theorem chunkOf_inb (i : Fin 16) : ∀ a, (![1024 * i.val] : Fin 1 → ℕ) a + S1024.size a ≤ S16384.size a := by
  intro a
  obtain rfl : a = 0 := Subsingleton.elim _ _
  show 1024 * i.val + 1024 ≤ 16384
  have := i.isLt; omega

/-- Tile `i`'s words of a flat 16384-word array: 1024 i … 1024 i + 1023. -/
def chunkOf (i : Fin 16) : Finset S16384.Idx := (Rect.unit (s := S16384) ![1024 * i.val] S1024.size (chunkOf_inb i)).set

theorem mem_chunkOf (i : Fin 16) (n : S16384.Idx) : n ∈ chunkOf i ↔ 1024 * i.val ≤ (n 0).val ∧ (n 0).val < 1024 * i.val + 1024 := by
  unfold chunkOf
  rw [Rect.mem_set_unit]
  constructor
  · intro h; exact h 0
  · intro h a
    obtain rfl : a = 0 := Subsingleton.elim _ _
    exact h

theorem chunks_disjoint : ∀ i ∈ (Finset.univ : Finset (Fin 16)), ∀ j ∈ (Finset.univ : Finset (Fin 16)), i ≠ j → Disjoint (chunkOf i) (chunkOf j) := by
  intro i _ j _ hij
  refine Finset.disjoint_left.mpr fun n hi hj => hij (Fin.ext ?_)
  have h1 := (mem_chunkOf i n).mp hi
  have h2 := (mem_chunkOf j n).mp hj
  omega

theorem chunks_cover : (Finset.univ : Finset (Fin 16)).biUnion chunkOf = Finset.univ := by
  ext n
  simp only [Finset.mem_biUnion, Finset.mem_univ, true_and, iff_true]
  have hn : (n 0).val < 16384 := (n 0).isLt
  exact ⟨⟨(n 0).val / 1024, by omega⟩, (mem_chunkOf _ n).mpr ⟨by show 1024 * ((n 0).val / 1024) ≤ _; omega, by show _ < 1024 * ((n 0).val / 1024) + 1024; omega⟩⟩

theorem bound_one : grid0.bound 1 = 16 := rfl
abbrev jL (L : grid0.Coords) : Fin 16 := Fin.cast bound_one (L 1)

/-- The chunk the body slices on tile `L` is the tile's. -/
theorem chunkSet_eq (L : grid0.Coords) : chunkSet L = chunkOf (jL L) := by
  ext n
  rw [mem_chunkOf]
  show n ∈ (Rect.unit (s := S16384) (k0_off1 L) S1024.size (k0_off1_inb L)).set ↔ _
  rw [Rect.mem_set_unit, k0_off1_eq]
  have h0 : (L 0).val = 0 := by have : (L 0).val < 1 := (L 0).isLt; omega
  constructor
  · intro h
    have := h 0
    have e : (![1024 * (L 1).val + 1024 * (L 0).val] : Fin 1 → ℕ) 0 = 1024 * (L 1).val + 1024 * (L 0).val := rfl
    rw [e, h0] at this
    exact ⟨by have := this.1; show 1024 * (L 1).val ≤ _; omega, by have := this.2; show _ < 1024 * (L 1).val + 1024; have e2 : S1024.size (0 : Fin 1) = 1024 := rfl; rw [e2] at this; omega⟩
  · intro h a
    obtain rfl : a = 0 := Subsingleton.elim _ _
    have e : (![1024 * (L 1).val + 1024 * (L 0).val] : Fin 1 → ℕ) 0 = 1024 * (L 1).val + 1024 * (L 0).val := rfl
    have e2 : S1024.size (0 : Fin 1) = 1024 := rfl
    rw [e, e2, h0]
    have h1 : 1024 * (L 1).val ≤ (n 0).val := h.1
    have h2 : (n 0).val < 1024 * (L 1).val + 1024 := h.2
    exact ⟨by omega, by omega⟩

/-! ## The arrays of the call: @main's three reshapes of its arguments -/

variable (m : (ℓ : Loc nD τ sig) → Buf (Elt F) ℓ) (ρ : Dev nD → PrngReg)

abbrev r_a0 : DevRef τ sig := Proc.devRef .tc (main_arg0 : Ref sig .tc)
abbrev r_a1 : DevRef τ sig := Proc.devRef .tc (main_arg1 : Ref sig .tc)
abbrev r_a2 : DevRef τ sig := Proc.devRef .tc (main_arg2 : Ref sig .tc)
abbrev r_x : DevRef τ sig := Proc.devRef .tc (main_v0 : Ref sig .tc)
abbrev r_a : DevRef τ sig := Proc.devRef .tc (main_v1 : Ref sig .tc)
abbrev r_b : DevRef τ sig := Proc.devRef .tc (main_v2 : Ref sig .tc)
abbrev r_o : DevRef τ sig := Proc.devRef .tc (main_v3 : Ref sig .tc)
abbrev r_y : DevRef τ sig := Proc.devRef .tc (main_v4 : Ref sig .tc)

abbrev op0 : HloOp τ sig (Elt F) := StableHlo.reshape main_arg0 main_v0 rfl shapeCasts_S16384x1_S16384
abbrev op1 : HloOp τ sig (Elt F) := StableHlo.reshape main_arg1 main_v1 rfl shapeCasts_S10x1_S10
abbrev op2 : HloOp τ sig (Elt F) := StableHlo.reshape main_arg2 main_v2 rfl shapeCasts_S1x10_S10
abbrev op4 : HloOp τ sig (Elt F) := StableHlo.reshape main_v3 main_v4 rfl shapeCasts_S16384_S16384x1

/-- The launch valuation, and the one after the three reshapes. -/
def V0 (d : Dev nD) : Valuation τ sig (Elt F) := fun b => m (d, b)
abbrev V3 (d : Dev nD) : Valuation τ sig (Elt F) := (op2 (F := F)).result ((op1 (F := F)).result ((op0 (F := F)).result (V0 m d)))

/-- The flat input and the two flat weight vectors as the call finds them. -/
def XA (d : Dev nD) : Buf (Elt F) (xLoc d) := V3 m d r_x
def AA (d : Dev nD) : Buf (Elt F) (aLoc d) := V3 m d r_a
def BA (d : Dev nD) : Buf (Elt F) (bLoc d) := V3 m d r_b

variable [FloatOps F]

/-- The flat result the call leaves. -/
def OA (d : Dev nD) : Buf (Elt F) (oLoc d) := outOf d (XA m d) (AA m d) (BA m d)

/-! ## What the handshakes carry -/

abbrev tokOf (i : Fin 16) : PosShare TreeShare := Transfers.shareTok fullShare 16 i

def stOf (d : Dev nD) : sProp 𝕄 :=
  iprop((xLoc d ↦{fullShare} XA m d) ∗ (aLoc d ↦{fullShare} AA m d) ∗ (bLoc d ↦{fullShare} BA m d) ∗ ∃ f, oLoc d ↦{fullShare} f)
def dnOf (d : Dev nD) : sProp 𝕄 :=
  iprop((xLoc d ↦{fullShare} XA m d) ∗ (aLoc d ↦{fullShare} AA m d) ∗ (bLoc d ↦{fullShare} BA m d) ∗ oLoc d ↦{fullShare} OA m d)
def goOf (d : Dev nD) (i : Fin 16) : sProp 𝕄 :=
  iprop((xLoc d ↦[chunkOf i]{fullShare} XA m d) ∗ (aLoc d ↦{tokOf i} AA m d) ∗ (bLoc d ↦{tokOf i} BA m d) ∗ ∃ f, oLoc d ↦[chunkOf i]{fullShare} f)
def tdOf (d : Dev nD) (i : Fin 16) : sProp 𝕄 :=
  iprop((xLoc d ↦[chunkOf i]{fullShare} XA m d) ∗ (aLoc d ↦{tokOf i} AA m d) ∗ (bLoc d ↦{tokOf i} BA m d) ∗ oLoc d ↦[chunkOf i]{fullShare} OA m d)

/-- The one call takes the four arrays whole, each task its chunk of the input and of the result and a read share
    of each weight vector, and brings them back, the result at the scaled input. -/
def P : (K (F := F)).Pay (nD := nD) (Val := Elt F) (Name := ℕ) (U := UU) where
  st := fun q d _ => match q with | 0 => stOf m d
  dn := fun q d _ => match q with | 0 => dnOf m d
  go := fun q d _ i => match q with | 0 => goOf m d (Fin.cast nSub_zero i)
  td := fun q d _ i => match q with | 0 => tdOf m d (Fin.cast nSub_zero i)
  x := fun _ _ => iprop(emp)

instance P_storable : (P (F := F) m).IsStorable where
  st q d _ := match q with | 0 => by show BI.Storable upEmb (stOf m d); unfold stOf; infer_instance
  dn q d _ := match q with | 0 => by show BI.Storable upEmb (dnOf m d); unfold dnOf; infer_instance
  go q d _ i := match q with | 0 => by show BI.Storable upEmb (goOf m d _); unfold goOf; infer_instance
  td q d _ i := match q with | 0 => by show BI.Storable upEmb (tdOf m d _); unfold tdOf; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_net (coordsV c s)
          xV (Memref.isWhole_whole _) aV (Memref.isWhole_whole _) bV (Memref.isWhole_whole _) oV (Memref.isWhole_whole _)
          sX (Memref.isWhole_whole _) sA (Memref.isWhole_whole _) sB (Memref.isWhole_whole _) cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's task stated over the tile's chunk by its number. -/
theorem tile_body' (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ goOf m d (jL L)
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__sc_net L xV (Memref.isWhole_whole _) aV (Memref.isWhole_whole _) bV (Memref.isWhole_whole _) oV (Memref.isWhole_whole _)
            sX (Memref.isWhole_whole _) sA (Memref.isWhole_whole _) sB (Memref.isWhole_whole _) cc0_scratch3 cc0_scratch4 cc0_scratch5 cc0_scoped0)
          fun _ => iprop(tdOf m d (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  unfold goOf tdOf OA
  rw [← chunkSet_eq L]
  exact tile_body d L hF O W hO (XA m d) (AA m d) (BA m d) (tokOf (jL L))

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body' m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A flat 16384-word array held whole is its sixteen chunks. -/
theorem xPts_chunks (d : Dev nD) (f : Buf (Elt F) (xLoc d)) :
    (xLoc d ↦{fullShare} f : sProp 𝕄) = bigSep Finset.univ fun i : Fin 16 => xLoc d ↦[chunkOf i]{fullShare} f := by
  rw [← pointsTo_biUnion Finset.univ (ℓ := xLoc d) chunkOf chunks_disjoint, chunks_cover]; try rfl
omit [FloatOps F] in
theorem oPts_chunks (d : Dev nD) (f : Buf (Elt F) (oLoc d)) :
    (oLoc d ↦{fullShare} f : sProp 𝕄) = bigSep Finset.univ fun i : Fin 16 => oLoc d ↦[chunkOf i]{fullShare} f := by
  rw [← pointsTo_biUnion Finset.univ (ℓ := oLoc d) chunkOf chunks_disjoint, chunks_cover]; try rfl

omit [FloatOps F] in
theorem chunk_some (d : Dev nD) (i : Fin 16) (f : Buf (Elt F) (oLoc d)) :
    (oLoc d ↦[chunkOf i]{fullShare} f : sProp 𝕄) ⊢ iprop(∃ g, oLoc d ↦[chunkOf i]{fullShare} g) := by
  iintro H; iexists f; iexact H
omit [FloatOps F] in
theorem chunks_some (d : Dev nD) (f : Buf (Elt F) (oLoc d)) :
    (bigSep Finset.univ fun i : Fin 16 => (oLoc d ↦[chunkOf i]{fullShare} f : sProp 𝕄))
      ⊢ bigSep Finset.univ fun i : Fin 16 => iprop(∃ g, oLoc d ↦[chunkOf i]{fullShare} g) :=
  bigSep_mono fun i _ => chunk_some d i f

theorem vecSplit : (K (F := F)).VecSplit' (P m) 0 := by
  intro d c
  show stOf m d ⊢ |={Set.univ}=> iprop((bigSep Finset.univ fun i : Fin ((K (F := F)).nSub 0) => goOf m d (Fin.cast nSub_zero i))
      ∗ ((bigSep Finset.univ fun i : Fin ((K (F := F)).nSub 0) => tdOf m d (Fin.cast nSub_zero i)) -∗ dnOf m d))
  rw [bigSep_tasks (F := F) (goOf m d), bigSep_tasks (F := F) (tdOf m d)]
  unfold stOf dnOf goOf tdOf
  rw [bigSep_sep', bigSep_sep', bigSep_sep', bigSep_sep', bigSep_sep', bigSep_sep']
  rw [xPts_chunks d (XA m d), oPts_chunks d (OA m d)]
  iintro ⟨Hx, Ha, Hb, %f, Ho⟩
  ihave Ha' := (Transfers.pointsTo_toks_split fullShare 16) $$ Ha
  icases Ha' with ⟨Har, Hat⟩
  ihave Hb' := (Transfers.pointsTo_toks_split fullShare 16) $$ Hb
  icases Hb' with ⟨Hbr, Hbt⟩
  ihave Ho' := (Entails.of_eq (oPts_chunks (F := F) d f)) $$ Ho
  ihave Ho'' := (chunks_some (F := F) d f) $$ Ho'
  imodintro
  isplitl [Hx Hat Hbt Ho'']
  · isplitl [Hx]; · iexact Hx
    isplitl [Hat]; · iexact Hat
    isplitl [Hbt]; · iexact Hbt
    iexact Ho''
  iintro ⟨Hx, Hat, Hbt, Ho⟩
  isplitl [Hx]; · iexact Hx
  isplitl [Har Hat]
  · iapply (Transfers.pointsTo_toks_join fullShare 16)
    isplitl [Har]; · iexact Har
    iexact Hat
  isplitl [Hbr Hbt]
  · iapply (Transfers.pointsTo_toks_join fullShare 16)
    isplitl [Hbr]; · iexact Hbr
    iexact Hbt
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's eight arrays, all unscoped: the three arguments, their three flat copies, the call's flat
    result and @main's result. -/
abbrev S8 : Finset (DevRef τ sig) := {r_a0, r_a1, r_a2, r_x, r_a, r_b, r_o, r_y}

omit [FloatOps F] in
theorem held_S8 (d : Dev nD) (W : Valuation τ sig (Elt F)) :
    (held (T d) S8 W : sProp 𝕄) = iprop(((SparseCore.T d).loc main_arg0 ↦{fullShare} W r_a0) ∗ ((SparseCore.T d).loc main_arg1 ↦{fullShare} W r_a1) ∗ ((SparseCore.T d).loc main_arg2 ↦{fullShare} W r_a2) ∗ ((SparseCore.T d).loc main_v0 ↦{fullShare} W r_x) ∗ ((SparseCore.T d).loc main_v1 ↦{fullShare} W r_a) ∗ ((SparseCore.T d).loc main_v2 ↦{fullShare} W r_b) ∗ ((SparseCore.T d).loc main_v3 ↦{fullShare} W r_o) ∗ ((SparseCore.T d).loc main_v4 ↦{fullShare} W r_y)) := by
  unfold held S8
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) S8 (V0 m d) := by
  rw [unscopedBufs_eq, held_S8]; rfl

theorem st0_eq (d : Dev nD) : (bigSep Finset.univ fun c : Fin ((K (F := F)).nCore 0) => (P m).st 0 d c) = stOf m d :=
  bigSep_univ_of_subsingleton (0 : Fin 1)
theorem dn0_eq (d : Dev nD) : (bigSep Finset.univ fun c : Fin ((K (F := F)).nCore 0) => (P m).dn 0 d c) = dnOf m d :=
  bigSep_univ_of_subsingleton (0 : Fin 1)

theorem h0sub : (op0 (F := F)).bufs ⊆ S8 := show ({r_a0, r_x} : Finset (DevRef τ sig)) ⊆ S8 by decide
theorem h1sub : (op1 (F := F)).bufs ⊆ S8 := show ({r_a1, r_a} : Finset (DevRef τ sig)) ⊆ S8 by decide
theorem h2sub : (op2 (F := F)).bufs ⊆ S8 := show ({r_a2, r_b} : Finset (DevRef τ sig)) ⊆ S8 by decide
theorem h4sub : (op4 (F := F)).bufs ⊆ S8 := show ({r_o, r_y} : Finset (DevRef τ sig)) ⊆ S8 by decide

abbrev S4 : Finset (DevRef τ sig) := {r_x, r_a, r_b, r_o}
abbrev SF : Finset (DevRef τ sig) := {r_a0, r_a1, r_a2, r_y}

omit [FloatOps F] in
theorem held_S4 (d : Dev nD) (W : Valuation τ sig (Elt F)) :
    (held (T d) S4 W : sProp 𝕄) = iprop((xLoc d ↦{fullShare} W r_x) ∗ (aLoc d ↦{fullShare} W r_a) ∗ (bLoc d ↦{fullShare} W r_b) ∗ oLoc d ↦{fullShare} W r_o) := by
  unfold held S4
  rw [SparseCore.bigSep_insert' (by decide), SparseCore.bigSep_insert' (by decide), SparseCore.bigSep_insert' (by decide), bigSep_singleton]

omit [FloatOps F] in
theorem held_SF (d : Dev nD) (W : Valuation τ sig (Elt F)) :
    (held (T d) SF W : sProp 𝕄) = iprop(((SparseCore.T d).loc main_arg0 ↦{fullShare} W r_a0) ∗ ((SparseCore.T d).loc main_arg1 ↦{fullShare} W r_a1)
      ∗ ((SparseCore.T d).loc main_arg2 ↦{fullShare} W r_a2) ∗ (SparseCore.T d).loc main_v4 ↦{fullShare} W r_y) := by
  unfold held SF
  rw [SparseCore.bigSep_insert' (by decide), SparseCore.bigSep_insert' (by decide), SparseCore.bigSep_insert' (by decide), bigSep_singleton]

/-- After the call the flat result holds the scaled input; after the last reshape @main's result holds it at its shape. -/
def V4 (d : Dev nD) : Valuation τ sig (Elt F) := Function.update (V3 m d) r_o (OA m d)
abbrev VF (d : Dev nD) : Valuation τ sig (Elt F) := (op4 (F := F)).result (V4 m d)

theorem V4_x (d : Dev nD) : V4 m d r_x = XA m d := Function.update_of_ne (show r_x ≠ r_o by decide) _ _
theorem V4_a (d : Dev nD) : V4 m d r_a = AA m d := Function.update_of_ne (show r_a ≠ r_o by decide) _ _
theorem V4_b (d : Dev nD) : V4 m d r_b = BA m d := Function.update_of_ne (show r_b ≠ r_o by decide) _ _
theorem V4_o (d : Dev nD) : V4 m d r_o = OA m d := Function.update_self _ _ _

theorem stOf_eq (d : Dev nD) : stOf m d = iprop((xLoc d ↦{fullShare} XA m d) ∗ (aLoc d ↦{fullShare} AA m d) ∗ (bLoc d ↦{fullShare} BA m d) ∗ ∃ f, oLoc d ↦{fullShare} f) := rfl
theorem dnOf_eq (d : Dev nD) : dnOf m d = iprop((xLoc d ↦{fullShare} XA m d) ∗ (aLoc d ↦{fullShare} AA m d) ∗ (bLoc d ↦{fullShare} BA m d) ∗ oLoc d ↦{fullShare} OA m d) := rfl

theorem hS4 : S4 ⊆ S8 := by decide
theorem hSF : SF ⊆ S8 := by decide

/-- What @main leaves the claim: the three arguments and the result, at the final valuation. -/
abbrev FIN (d : Dev nD) : sProp 𝕄 := held (T d) SF (VF m d)

/-- @main on device `d`'s TensorCore: three reshapes, the call (from the four flat arrays), the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0) (S := S8) h0sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S8) h1sub (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S8) h2sub (V := (op1 (F := F)).result ((op0 (F := F)).result (V0 m d)))) $$ [Hb Hheld]
  · isplitl [Hb]; · iexact Hb
    iexact Hheld
  iintro ⟨Hb, Hheld⟩
  rw [wp_ret]; imodintro
  -- the call: the four flat arrays to SparseCore 0 and back, the result at the scaled input
  ihave Hh := (Entails.of_eq (StableHlo.held_sub_split (SparseCore.T d) hS4 (V3 m d))) $$ Hheld
  icases Hh with ⟨H4, Hrest⟩
  ihave H4' := (Entails.of_eq (held_S4 (F := F) d (V3 m d))) $$ H4
  icases H4' with ⟨Hx, Ha, Hbb, Ho⟩
  iapply ((K (F := F)).wp_run (D (F := F)) 𝒱 (EH := EH) (P := P m) κ d 0) $$ [Hst Hx Ha Hbb Ho Hb Hrest]
  isplitr; · iexact Hctx
  isplitl [Hst]; · iexact Hst
  isplitl [Hx Ha Hbb Ho]
  · rw [st0_eq, stOf_eq]
    isplitl [Hx]; · iexact Hx
    isplitl [Ha]; · iexact Ha
    isplitl [Hbb]; · iexact Hbb
    iexists _; iexact Ho
  iintro ⟨Hst, Hdn⟩
  ihave Hdn' := (Entails.of_eq ((dn0_eq m d).trans (dnOf_eq m d))) $$ Hdn
  icases Hdn' with ⟨Hx, Ha, Hbb, Ho⟩
  ihave H4 := (Entails.of_eq (held_S4 (F := F) d (V4 m d)).symm) $$ [Hx Ha Hbb Ho]
  · rw [V4_x, V4_a, V4_b, V4_o]
    isplitl [Hx]; · iexact Hx
    isplitl [Ha]; · iexact Ha
    isplitl [Hbb]; · iexact Hbb
    iexact Ho
  ihave Hrest' := (Entails.of_eq (StableHlo.held_congr (SparseCore.T d) (S := S8 \ S4) (V := V3 m d) (V' := V4 m d) (fun b hb =>
    (Function.update_of_ne (fun e => by subst e; exact absurd hb (by decide)) _ _).symm))) $$ Hrest
  ihave Hheld := (Entails.of_eq (StableHlo.held_sub_split (SparseCore.T d) hS4 (V4 m d)).symm) $$ [H4 Hrest']
  · isplitl [H4] <;> iassumption
  iapply (wp_hlo_within 𝒱 (SparseCore.T d) none Set.univ (op := op4) (S := S8) h4sub (V := V4 m d)) $$ [Hb Hheld]
  · isplitl [Hb]; · iexact Hb
    iexact Hheld
  iintro ⟨Hb, Hheld⟩
  rw [wp_ret]; imodintro; imodintro
  isplitl [Hst]; · iexact Hst
  ihave Hh := (Entails.of_eq (StableHlo.held_sub_split (SparseCore.T d) hSF (VF m d))) $$ Hheld
  icases Hh with ⟨HF, -⟩
  iexact HF

def fq (d : Dev nD) (s' : Phys nD τ sig (Elt F)) : Prop :=
  s'.mem.mem ((SparseCore.T d).loc main_arg0) = VF m d r_a0 ∧ s'.mem.mem ((SparseCore.T d).loc main_arg1) = VF m d r_a1
    ∧ s'.mem.mem ((SparseCore.T d).loc main_arg2) = VF m d r_a2 ∧ s'.mem.mem ((SparseCore.T d).loc main_v4) = VF m d r_y

theorem hfin (d : Dev nD) (s' : Phys nD τ sig (Elt F)) : iprop(FIN m d ∗ SI s') ⊢ (⌜fq m d s'⌝ : sProp 𝕄) := by
  unfold FIN
  rw [held_SF]
  iintro ⟨⟨H0, H1, H2, Hy⟩, HSI⟩
  ihave H := (persistent_entails_right (SI_pointsTo_agree (st := s') (ℓ := (SparseCore.T d).loc main_arg0) (I := Finset.univ) (q := fullShare) (f := VF m d r_a0))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := VF m d r_a1))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := VF m d r_a2))) $$ [HSI H2]
  · isplitl [HSI] <;> iassumption
  icases H with ⟨%h2, HSI, -⟩
  ihave H := (SI_pointsTo_agree (st := s') (ℓ := (SparseCore.T d).loc main_v4) (I := Finset.univ) (q := fullShare) (f := VF m d r_y)) $$ [HSI Hy]
  · isplitl [HSI] <;> iassumption
  icases H with %hy
  ipureintro
  exact ⟨funext fun i => h0 i (Finset.mem_univ i), funext fun i => h1 i (Finset.mem_univ i), funext fun i => h2 i (Finset.mem_univ i),
    funext fun i => hy i (Finset.mem_univ i)⟩

/-! ## The program's run -/

def QC : PUnit × MemSt nD τ sig (Elt F) → Prop := fun r => ∀ c : Dev nD,
  r.2.mem ((SparseCore.T c).loc main_arg0) = VF m c r_a0 ∧ r.2.mem ((SparseCore.T c).loc main_arg1) = VF m c r_a1
    ∧ r.2.mem ((SparseCore.T c).loc main_arg2) = VF m c r_a2 ∧ r.2.mem ((SparseCore.T c).loc main_v4) = VF m c r_y

/-- Every weakly fair execution of the device's threads terminates, nothing faulting, with the three arguments and
    the result at the final valuation. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The final valuation read back -/

/-- The arguments end as they began. -/
theorem VF_a0 (d : Dev nD) : VF m d r_a0 = m ((SparseCore.T d).loc main_arg0) := by
  show (op4 (F := F)).result (V4 m d) (Proc.devRef .tc main_arg0) = _
  rw [StableHlo.reshape_result_ne]; rotate_left; decide
  unfold V4
  rw [Function.update_of_ne (show r_a0 ≠ r_o by decide)]
  show (op2 (F := F)).result ((op1 (F := F)).result ((op0 (F := F)).result (V0 m d))) (Proc.devRef .tc main_arg0) = _
  rw [StableHlo.reshape_result_ne]; rotate_left; decide
  rw [StableHlo.reshape_result_ne]; rotate_left; decide
  rw [StableHlo.reshape_result_ne]; rotate_left; decide
  rfl
theorem VF_a1 (d : Dev nD) : VF m d r_a1 = m ((SparseCore.T d).loc main_arg1) := by
  show (op4 (F := F)).result (V4 m d) (Proc.devRef .tc main_arg1) = _
  rw [StableHlo.reshape_result_ne]; rotate_left; decide
  unfold V4
  rw [Function.update_of_ne (show r_a1 ≠ r_o by decide)]
  show (op2 (F := F)).result ((op1 (F := F)).result ((op0 (F := F)).result (V0 m d))) (Proc.devRef .tc main_arg1) = _
  rw [StableHlo.reshape_result_ne]; rotate_left; decide
  rw [StableHlo.reshape_result_ne]; rotate_left; decide
  rw [StableHlo.reshape_result_ne]; rotate_left; decide
  rfl
theorem VF_a2 (d : Dev nD) : VF m d r_a2 = m ((SparseCore.T d).loc main_arg2) := by
  show (op4 (F := F)).result (V4 m d) (Proc.devRef .tc main_arg2) = _
  rw [StableHlo.reshape_result_ne]; rotate_left; decide
  unfold V4
  rw [Function.update_of_ne (show r_a2 ≠ r_o by decide)]
  show (op2 (F := F)).result ((op1 (F := F)).result ((op0 (F := F)).result (V0 m d))) (Proc.devRef .tc main_arg2) = _
  rw [StableHlo.reshape_result_ne]; rotate_left; decide
  rw [StableHlo.reshape_result_ne]; rotate_left; decide
  rw [StableHlo.reshape_result_ne]; rotate_left; decide
  rfl

/-- @main's result is the flat result at its shape. -/
theorem VF_y (d : Dev nD) : VF m d r_y = fun i => shapeCast S16384x1 (OA m d) shapeCasts_S16384_S16384x1 i := by
  show (op4 (F := F)).result (V4 m d) (Proc.devRef .tc main_v4) = _
  rw [StableHlo.reshape_result]
  show (fun i => shapeCast S16384x1 (V4 m d r_o) shapeCasts_S16384_S16384x1 i) = _
  rw [V4_o]

omit [FloatOps F] in
/-- The flat input and weights are the arguments at their flat shapes. -/
theorem XA_eq (d : Dev nD) : XA m d = fun i => shapeCast S16384 (m ((SparseCore.T d).loc main_arg0)) shapeCasts_S16384x1_S16384 i := by
  show (op2 (F := F)).result ((op1 (F := F)).result ((op0 (F := F)).result (V0 m d))) (Proc.devRef .tc main_v0) = _
  rw [StableHlo.reshape_result_ne]; rotate_left; decide
  rw [StableHlo.reshape_result_ne]; rotate_left; decide
  rw [StableHlo.reshape_result]
  rfl
omit [FloatOps F] in
theorem AA_eq (d : Dev nD) : AA m d = fun i => shapeCast S10 (m ((SparseCore.T d).loc main_arg1)) shapeCasts_S10x1_S10 i := by
  show (op2 (F := F)).result ((op1 (F := F)).result ((op0 (F := F)).result (V0 m d))) (Proc.devRef .tc main_v1) = _
  rw [StableHlo.reshape_result_ne]; rotate_left; decide
  rw [StableHlo.reshape_result]
  rw [StableHlo.reshape_result_ne]; rotate_left; decide
  rfl
omit [FloatOps F] in
theorem BA_eq (d : Dev nD) : BA m d = fun i => shapeCast S10 (m ((SparseCore.T d).loc main_arg2)) shapeCasts_S1x10_S10 i := by
  show (op2 (F := F)).result ((op1 (F := F)).result ((op0 (F := F)).result (V0 m d))) (Proc.devRef .tc main_v2) = _
  rw [StableHlo.reshape_result]
  rw [StableHlo.reshape_result_ne]; rotate_left; decide
  rw [StableHlo.reshape_result_ne]; rotate_left; decide
  rfl

/-- The run read at the claim's arrays: the result named, the arguments unchanged. -/
theorem run_val [∀ e, Nonempty (Elt F e)] :
    θ_run (Cert.KernelIdeal.defs (F := F)) (Cert.KernelIdeal.threads (F := F)) ⟨m, fun _ => 0, ρ⟩ fun r => ∀ c : Dev nD,
      r.2.mem ((SparseCore.T c).loc main_v4) = (fun i => shapeCast S16384x1 (OA m c) shapeCasts_S16384_S16384x1 i)
      ∧ r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2) :=
  (θ_run _ _ _).mono (fun _ h c => ⟨(h c).2.2.2.trans (VF_y m c), (h c).1.trans (VF_a0 m c), (h c).2.1.trans (VF_a1 m c), (h c).2.2.1.trans (VF_a2 m c)⟩)
    (run_main m ρ)

end Cert.Proof.IdealSide

end
-- ==== Proof.Algebra.lean ====
/-
  The one law that joins the two sides. The kernel scales a word x by the scalar b₀a₆ + b₁a₇ + … + b₉a₄
  (the weights paired through the rearrangement π = (6, 7, 8, 9, 0, 1, 5, 2, 3, 4), summed from the left);
  the reference first forms the ten products x·a_k (each a one-term sum), rearranges them by π, and sums
  them against b. On the extended reals a product does not distribute over a sum at the infinities, so the two
  agree where x, a and b are real numbers: there both are the real number Σ_j x·a_{π j}·b_j.
-/
import Mathlib.Data.EReal.Inv
import Mathlib.Algebra.BigOperators.Fin
import Mathlib.Tactic.Ring

noncomputable section

namespace Cert.Proof.Algebra

open scoped BigOperators

/-- The rearrangement of the ten hidden features: the four groups [0:2], [2:5], [5:6], [6:10] in the order
    last, first, third, second. -/
def perm : Fin 10 → Fin 10 := ![6, 7, 8, 9, 0, 1, 5, 2, 3, 4]

/-- The kernel's scale, summed from the left. -/
def scaleE (a b : Fin 10 → EReal) : EReal :=
  b 0 * a 6 + b 1 * a 7 + b 2 * a 8 + b 3 * a 9 + b 4 * a 0 + b 5 * a 1 + b 6 * a 5 + b 7 * a 2 + b 8 * a 3 + b 9 * a 4

theorem sum10 {M : Type} [AddCommMonoid M] (g : Fin 10 → M) :
    ∑ k, g k = g 0 + g 1 + g 2 + g 3 + g 4 + g 5 + g 6 + g 7 + g 8 + g 9 := by
  simp only [Fin.sum_univ_succ, Fin.sum_univ_zero, add_zero]
  simp only [← add_assoc]
  rfl

/-- On real numbers: x · Σ_j b_j a_{π j} = Σ_j (Σ_{i < 1} x a_{π j}) b_j. -/
theorem bridge_real (x : ℝ) (a b : Fin 10 → ℝ) :
    (x : EReal) * scaleE (fun k => (a k : EReal)) (fun k => (b k : EReal))
      = ∑ j : Fin 10, (∑ _i : Fin 1, (x : EReal) * ((a (perm j) : ℝ) : EReal)) * ((b j : ℝ) : EReal) := by
  rw [sum10]
  simp only [Fin.sum_univ_one, scaleE]
  have p0 : perm 0 = 6 := rfl
  have p1 : perm 1 = 7 := rfl
  have p2 : perm 2 = 8 := rfl
  have p3 : perm 3 = 9 := rfl
  have p4 : perm 4 = 0 := rfl
  have p5 : perm 5 = 1 := rfl
  have p6 : perm 6 = 5 := rfl
  have p7 : perm 7 = 2 := rfl
  have p8 : perm 8 = 3 := rfl
  have p9 : perm 9 = 4 := rfl
  rw [p0, p1, p2, p3, p4, p5, p6, p7, p8, p9]
  simp only [← EReal.coe_mul, ← EReal.coe_add]
  congr 1
  ring

/-- The same for extended reals that are real numbers. -/
theorem bridge (x : EReal) (a b : Fin 10 → EReal) (hx : ∃ r : ℝ, x = r) (ha : ∀ k, ∃ r : ℝ, a k = r) (hb : ∀ k, ∃ r : ℝ, b k = r) :
    x * scaleE a b = ∑ j : Fin 10, (∑ _i : Fin 1, x * a (perm j)) * b j := by
  obtain ⟨xr, rfl⟩ := hx
  choose ar har using ha
  choose br hbr using hb
  obtain rfl : a = fun k => (ar k : EReal) := funext har
  obtain rfl : b = fun k => (br k : EReal) := funext hbr
  exact bridge_real xr ar br

/-- The same with the one-term sums written out. -/
theorem bridge' (x : EReal) (a b : Fin 10 → EReal) (hx : ∃ r : ℝ, x = r) (ha : ∀ k, ∃ r : ℝ, a k = r) (hb : ∀ k, ∃ r : ℝ, b k = r) :
    x * scaleE a b = ∑ j : Fin 10, (x * a (perm j)) * b j := by
  rw [bridge x a b hx ha hb]
  simp only [Fin.sum_univ_one]

end Cert.Proof.Algebra

end
-- ==== Proof.LibFiniteReal.lean ====
/-
  "Every entry is finite", read back at the ideal reading: every entry is a real number.

  A precondition that says an array holds finite floats is printed as: take absolute values, compare each with the
  infinity word by "less than", and fold the one-bit answers by "and" from one; the claim states that the result is one.
  At the ideal reading a float is an extended real, the infinity word is `+∞`, the absolute value of `x` is the larger of
  `x` and `−x`, and the comparison is the order's.  So the fold being one says `max x (−x) < +∞` of every entry, and an
  extended real with that property is neither infinity: it is a real number.  This is the step that lets an identity
  proved over the real numbers be used under a finiteness precondition, for an array of any shape.  The companion
  read-back of "every entry is greater than zero" is stated the same way.
-/
import Idealize.ShloMosaic.PureOps.Ideal
import Idealize.ShloMosaic.Lib.ReduceAll
import Idealize.ShloMosaic.Lib.Pipeline.Value

noncomputable section

open Idealize.ShloMosaic

namespace Cert.FiniteReal

/-- The infinity word denotes `+∞`. -/
theorem inf_word : Ideal.ofBits .f32 0x7F800000#32 = (⊤ : EReal) := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The absolute value and the comparison at the ideal reading, on any two extended reals. -/
theorem absf_ideal (x : EReal) : FloatOps.absf (F := Ideal) (φ := .f32) x = max x (-x) := rfl
theorem cmpf_ideal (p : CmpFPredicate) (x y : EReal) : FloatOps.cmpf (F := Ideal) (φ := .f32) p x y = Ideal.cmp p x y := rfl

/-- One entry: if "its absolute value is less than the infinity word" is the word one, the entry is a real number. -/
theorem real_of_finite_word (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.hostAbsf_def, absf_ideal, cmpf_ideal, inf_word] at h
  apply real_of_abs_lt_top
  by_contra hn
  unfold Ideal.cmp at h
  simp [hn] at h

section Generic

variable {F : FTy → Type} [FloatOps F] {s : Shape}

/-- The entrywise comparison of the absolute values with a spread scalar, opened at an index. -/
theorem finite_test_open (x : FVec F s .f32) (hb : (⟨0, ![]⟩ : Shape).BroadcastsInDim s (![] : Fin 0 → Fin s.rank))
    (c : FVec F ⟨0, ![]⟩ .f32) (i : s.Idx) :
    cmpf .olt (Host.absf x) (broadcastInDim s ![] hb c) i
      = FloatOps.cmpf .olt (FloatOps.hostAbsf (x i)) (broadcastInDim s ![] hb c i) := rfl

end Generic

/-- All entries: if the fold by "and" of "absolute value less than the infinity word" over the whole array is one, every
    entry of the array is a real number. -/
theorem real_of_all_finite {s u : Shape} {axes : List (Fin s.rank)} (x : FVec Ideal s .f32)
    (hb : (⟨0, ![]⟩ : Shape).BroadcastsInDim s (![] : Fin 0 → Fin s.rank)) (init : u.Idx → BitVec 1)
    (h : s.ReducesTo axes ⟨0, ![]⟩) (hu : 0 < u.numel) (j : (⟨0, ![]⟩ : Shape).Idx)
    (e : Host.reduce IntOp.andi
        (cmpf .olt (Host.absf x) (broadcastInDim s ![] hb (constant (F := Ideal) ⟨0, ![]⟩ .f32 0x7F800000#32))) init h hu j = 1#1)
    (i : s.Idx) : ∃ r : ℝ, x i = (r : EReal) := by
  haveI : Subsingleton (⟨0, ![]⟩ : Shape).Idx := ⟨fun a b => funext fun d => d.elim0⟩
  have e1 := Host.reduce_andi_all _ init h hu j e i
  rw [finite_test_open,
    broadcastInDim_apply ![] hb (constant (F := Ideal) ⟨0, ![]⟩ .f32 0x7F800000#32) i (fun a => a.elim0) (fun a => a.elim0)] at e1
  exact real_of_finite_word (x i) e1

section GenericGt

variable {F : FTy → Type} [FloatOps F] {s : Shape}

/-- The entrywise comparison "greater than" with a spread scalar, opened at an index. -/
theorem gt_test_open (v : FVec F s .f32) (hb : (⟨0, ![]⟩ : Shape).BroadcastsInDim s (![] : Fin 0 → Fin s.rank))
    (c : FVec F ⟨0, ![]⟩ .f32) (i : s.Idx) :
    cmpf .ogt v (broadcastInDim s ![] hb c) i = FloatOps.cmpf .ogt (v i) (broadcastInDim s ![] hb c i) := rfl

end GenericGt

/-- "Every entry is greater than zero", read back: if the fold by "and" of "greater than the zero word" over the whole
    array is one, every entry of the array is positive. -/
theorem pos_of_all_gt_zero {s u : Shape} {axes : List (Fin s.rank)} (v : FVec Ideal s .f32)
    (hb : (⟨0, ![]⟩ : Shape).BroadcastsInDim s (![] : Fin 0 → Fin s.rank)) (init : u.Idx → BitVec 1)
    (h : s.ReducesTo axes ⟨0, ![]⟩) (hu : 0 < u.numel) (j : (⟨0, ![]⟩ : Shape).Idx)
    (e : Host.reduce IntOp.andi
        (cmpf .ogt v (broadcastInDim s ![] hb (constant (F := Ideal) ⟨0, ![]⟩ .f32 0x00000000#32))) init h hu j = 1#1)
    (i : s.Idx) : 0 < v i := by
  haveI : Subsingleton (⟨0, ![]⟩ : Shape).Idx := ⟨fun a b => funext fun d => d.elim0⟩
  have e1 := Host.reduce_andi_all _ init h hu j e i
  rw [gt_test_open,
    broadcastInDim_apply ![] hb (constant (F := Ideal) ⟨0, ![]⟩ .f32 0x00000000#32) i (fun a => a.elim0) (fun a => a.elim0),
    cmpf_ideal] at e1
  have hz : (constant (F := Ideal) ⟨0, ![]⟩ .f32 0x00000000#32) (fun a => a.elim0) = (0 : EReal) := by
    show Ideal.ofBits .f32 0x00000000#32 = 0
    simp [Ideal.ofBits, Ideal.ieee]
  rw [hz] at e1
  by_contra hn
  unfold Ideal.cmp at e1
  simp [hn] at e1

end Cert.FiniteReal

end
-- ==== Proof.Bridge.lean ====
/-
  The reference read at an index, and the law applied. The reference multiplies the [16384, 1] input by the
  transposed first weight (a one-term sum per hidden feature), rearranges the ten hidden features by slicing four
  groups of columns and joining them in another order, and multiplies by the transposed second weight: at row n
  its result is Σ_j (x_n · a_{π j}) · b_j. The kernel's result at row n is x_n · Σ_j b_j · a_{π j}. Under the
  precondition every entry is a real number, and the two agree.
-/
import proofs.«212145_g27582279975355_cont_9to1_2260_10_alg».proof.Proof.Gen.ReferenceIdeal.Read
import proofs.«212145_g27582279975355_cont_9to1_2260_10_alg».proof.Proof.Algebra
import proofs.«212145_g27582279975355_cont_9to1_2260_10_alg».proof.Proof.LibFiniteReal
import Idealize.ShloMosaic.Lib.Pipeline.Value
import Idealize.ShloMosaic.Lib.ValueIdx
import Idealize.ShloMosaic.PureOps.Ideal.Laws

noncomputable section

namespace Cert.Proof.Bridge

open Cert.ReferenceIdeal Cert.ReferenceIdeal.Gen Cert.ReferenceIdeal.Read Idealize.ShloMosaic Idealize.ShloMosaic.ValueIdx
open Cert.Proof.Algebra
open scoped BigOperators

variable (x0 : (⟨S16384x1, .f32⟩ : BufTy).Contents (Elt Ideal)) (x1 : (⟨S10x1, .f32⟩ : BufTy).Contents (Elt Ideal))
  (x2 : (⟨S1x10, .f32⟩ : BufTy).Contents (Elt Ideal))

/-! ## The rearranged hidden features: the four slices joined -/

/-- Columns 0 … 3 of the joined array are columns 6 … 9 of the hidden features. -/
theorem joined_p0 (n : Fin 16384) (c : Fin 4) :
    val_main_v6 (F := Ideal) x0 x1 (ix2 n (⟨c.val, by omega⟩ : Fin 10)) = val_main_v1 (F := Ideal) x0 x1 (ix2 n (⟨6 + c.val, by omega⟩ : Fin 10)) := by
  unfold val_main_v6
  rw [concatenate_apply_piece (1 : Fin S16384x10.rank) _ _ (ix2 n (⟨c.val, by omega⟩ : Fin 10)) 0 (by simp) S16384x4 (val_main_v5 (F := Ideal) x0 x1) rfl rfl 0 rfl
      (ix2 n c) (fun b hb => match b, hb with | ⟨0, _⟩, _ => rfl | ⟨1, _⟩, hb => absurd rfl hb) (by show 0 + c.val = c.val; omega),
    val_main_v5_apply]
  exact congrArg _ (funext fun a => match a with | ⟨0, _⟩ => rfl | ⟨1, _⟩ => rfl)

/-- Columns 4, 5 are columns 0, 1. -/
theorem joined_p1 (n : Fin 16384) (c : Fin 2) :
    val_main_v6 (F := Ideal) x0 x1 (ix2 n (⟨4 + c.val, by omega⟩ : Fin 10)) = val_main_v1 (F := Ideal) x0 x1 (ix2 n (⟨c.val, by omega⟩ : Fin 10)) := by
  unfold val_main_v6
  rw [concatenate_apply_piece (1 : Fin S16384x10.rank) _ _ (ix2 n (⟨4 + c.val, by omega⟩ : Fin 10)) 1 (by simp) S16384x2 (val_main_v2 (F := Ideal) x0 x1) rfl rfl 4 rfl
      (ix2 n c) (fun b hb => match b, hb with | ⟨0, _⟩, _ => rfl | ⟨1, _⟩, hb => absurd rfl hb) (by show 4 + c.val = 4 + c.val; rfl),
    val_main_v2_apply]
  exact congrArg _ (funext fun a => match a with | ⟨0, _⟩ => rfl | ⟨1, _⟩ => rfl)

/-- Column 6 is column 5. -/
theorem joined_p2 (n : Fin 16384) (c : Fin 1) :
    val_main_v6 (F := Ideal) x0 x1 (ix2 n (⟨6 + c.val, by omega⟩ : Fin 10)) = val_main_v1 (F := Ideal) x0 x1 (ix2 n (⟨5 + c.val, by omega⟩ : Fin 10)) := by
  unfold val_main_v6
  rw [concatenate_apply_piece (1 : Fin S16384x10.rank) _ _ (ix2 n (⟨6 + c.val, by omega⟩ : Fin 10)) 2 (by simp) S16384x1 (val_main_v4 (F := Ideal) x0 x1) rfl rfl 6 rfl
      (ix2 n c) (fun b hb => match b, hb with | ⟨0, _⟩, _ => rfl | ⟨1, _⟩, hb => absurd rfl hb) (by show 6 + c.val = 6 + c.val; rfl),
    val_main_v4_apply]
  exact congrArg _ (funext fun a => match a with | ⟨0, _⟩ => rfl | ⟨1, _⟩ => rfl)

/-- Columns 7, 8, 9 are columns 2, 3, 4. -/
theorem joined_p3 (n : Fin 16384) (c : Fin 3) :
    val_main_v6 (F := Ideal) x0 x1 (ix2 n (⟨7 + c.val, by omega⟩ : Fin 10)) = val_main_v1 (F := Ideal) x0 x1 (ix2 n (⟨2 + c.val, by omega⟩ : Fin 10)) := by
  unfold val_main_v6
  rw [concatenate_apply_piece (1 : Fin S16384x10.rank) _ _ (ix2 n (⟨7 + c.val, by omega⟩ : Fin 10)) 3 (by simp) S16384x3 (val_main_v3 (F := Ideal) x0 x1) rfl rfl 7 rfl
      (ix2 n c) (fun b hb => match b, hb with | ⟨0, _⟩, _ => rfl | ⟨1, _⟩, hb => absurd rfl hb) (by show 7 + c.val = 7 + c.val; rfl),
    val_main_v3_apply]
  exact congrArg _ (funext fun a => match a with | ⟨0, _⟩ => rfl | ⟨1, _⟩ => rfl)

/-- Column `k` of the joined array is column `π k` of the hidden features. -/
theorem joined_at (n : Fin 16384) (k : Fin 10) :
    val_main_v6 (F := Ideal) x0 x1 (ix2 n k) = val_main_v1 (F := Ideal) x0 x1 (ix2 n (perm k)) := by
  fin_cases k
  · exact joined_p0 x0 x1 n 0
  · exact joined_p0 x0 x1 n 1
  · exact joined_p0 x0 x1 n 2
  · exact joined_p0 x0 x1 n 3
  · exact joined_p1 x0 x1 n 0
  · exact joined_p1 x0 x1 n 1
  · exact joined_p2 x0 x1 n 0
  · exact joined_p3 x0 x1 n 0
  · exact joined_p3 x0 x1 n 1
  · exact joined_p3 x0 x1 n 2

/-- A hidden feature: the one-term sum x_n · a_k. -/
theorem hidden_at (n : Fin 16384) (k : Fin 10) :
    val_main_v1 (F := Ideal) x0 x1 (ix2 n k) = x0 (ix2 n (0 : Fin 1)) * x1 (ix2 k (0 : Fin 1)) := by
  rw [val_main_v1_apply, Fin.sum_univ_one, val_main_v0_apply]
  exact congrArg₂ (· * ·) (congrArg x0 (funext fun a => match a with | ⟨0, _⟩ => rfl | ⟨1, _⟩ => rfl))
    (congrArg x1 (funext fun a => match a with | ⟨0, _⟩ => rfl | ⟨1, _⟩ => rfl))

/-- The reference's result at row `n`: Σ_j (x_n · a_{π j}) · b_j. -/
theorem reference_at (n : Fin 16384) :
    val_main_v8 (F := Ideal) x0 x1 x2 (ix2 n (0 : Fin 1))
      = ∑ j : Fin 10, (x0 (ix2 n (0 : Fin 1)) * x1 (ix2 (perm j) (0 : Fin 1))) * x2 (ix2 (0 : Fin 1) j) := by
  rw [val_main_v8_apply]
  refine Finset.sum_congr rfl fun j _ => ?_
  have e1 : lidx_main_v8 (ix2 n (0 : Fin 1)) j = ix2 n j := funext fun a => match a with | ⟨0, _⟩ => rfl | ⟨1, _⟩ => rfl
  have e2 : idx_main_v7 (ridx_main_v8 (ix2 n (0 : Fin 1)) j) = ix2 (0 : Fin 1) j := funext fun a => match a with | ⟨0, _⟩ => rfl | ⟨1, _⟩ => rfl
  rw [e1, joined_at, hidden_at, val_main_v7_apply, e2]

end Cert.Proof.Bridge

end
-- ==== Proof.IdealValue.lean ====
/-
  The value at the ideal reading. The kernel's result array, read at row n, is x_n · Σ_j b_j · a_{π j} of the three
  argument arrays (the flat copies are the arguments in row-major order: word n of the flat input is entry (n, 0),
  word k of the flat weights entries (k, 0) and (0, k)); the reference's is Σ_j (x_n · a_{π j}) · b_j; the
  precondition makes every entry a real number, where the two are one number.
-/
import proofs.«212145_g27582279975355_cont_9to1_2260_10_alg».proof.Proof.Ideal.Launch
import proofs.«212145_g27582279975355_cont_9to1_2260_10_alg».proof.Proof.Bridge
import proofs.«212145_g27582279975355_cont_9to1_2260_10_alg».proof.Proof.Gen.Pre_finite_inputs
import Idealize.ShloMosaic.Lib.Affine

noncomputable section

namespace Cert.Proof.IdealValue

open Idealize.ShloMosaic Idealize.ShloMosaic.ValueIdx
open Cert.Proof.Algebra Cert.Proof.IdealSide
open scoped BigOperators

abbrev T2 : Shape := ⟨2, ![16384, 1]⟩
abbrev A2 : Shape := ⟨2, ![10, 1]⟩
abbrev B2 : Shape := ⟨2, ![1, 10]⟩

variable (x0 : T2.Idx → EReal) (x1 : A2.Idx → EReal) (x2 : B2.Idx → EReal)

/-- The kernel's result as a function of the three argument arrays. -/
def kernelOut : T2.Idx → EReal := fun i =>
  shapeCast Cert.KernelIdeal.S16384x1
    (fun n : Cert.KernelIdeal.S16384.Idx => FloatOps.mulf (F := Ideal) (φ := .f32) (shapeCast Cert.KernelIdeal.S16384 x0 Cert.KernelIdeal.Gen.shapeCasts_S16384x1_S16384 n)
      (scaleOf (F := Ideal) (fun k => shapeCast Cert.KernelIdeal.S10 x1 Cert.KernelIdeal.Gen.shapeCasts_S10x1_S10 (ix1 k))
        (fun k => shapeCast Cert.KernelIdeal.S10 x2 Cert.KernelIdeal.Gen.shapeCasts_S1x10_S10 (ix1 k))))
    Cert.KernelIdeal.Gen.shapeCasts_S16384_S16384x1 i

/-- At the ideal reading the scale is the extended reals' sum of products. -/
theorem scaleOf_ideal (a b : Fin 10 → EReal) : scaleOf (F := Ideal) a b = scaleE a b := rfl

theorem flat_x (n : Fin 16384) : shapeCast Cert.KernelIdeal.S16384 x0 Cert.KernelIdeal.Gen.shapeCasts_S16384x1_S16384 (ix1 n) = x0 (ix2 n (0 : Fin 1)) :=
  shapeCast_apply x0 _ (ix1 n) (ix2 n (0 : Fin 1)) (by
    rw [Shape.rowMajor_val_one, Shape.rowMajor_val_two]; show n.val * 1 + 0 = n.val; omega)
theorem flat_a (k : Fin 10) : shapeCast Cert.KernelIdeal.S10 x1 Cert.KernelIdeal.Gen.shapeCasts_S10x1_S10 (ix1 k) = x1 (ix2 k (0 : Fin 1)) :=
  shapeCast_apply x1 _ (ix1 k) (ix2 k (0 : Fin 1)) (by
    rw [Shape.rowMajor_val_one, Shape.rowMajor_val_two]; show k.val * 1 + 0 = k.val; omega)
theorem flat_b (k : Fin 10) : shapeCast Cert.KernelIdeal.S10 x2 Cert.KernelIdeal.Gen.shapeCasts_S1x10_S10 (ix1 k) = x2 (ix2 (0 : Fin 1) k) :=
  shapeCast_apply x2 _ (ix1 k) (ix2 (0 : Fin 1) k) (by
    rw [Shape.rowMajor_val_one, Shape.rowMajor_val_two]; show 0 * 10 + k.val = k.val; omega)

/-- The kernel's result at row `n`: x_n times the scale of the two weight arrays. -/
theorem kernel_at (n : Fin 16384) :
    kernelOut x0 x1 x2 (ix2 n (0 : Fin 1)) = x0 (ix2 n (0 : Fin 1)) * scaleE (fun k => x1 (ix2 k (0 : Fin 1))) (fun k => x2 (ix2 (0 : Fin 1) k)) := by
  unfold kernelOut
  rw [shapeCast_apply _ _ (ix2 n (0 : Fin 1)) (ix1 n) (by
    rw [Shape.rowMajor_val_one, Shape.rowMajor_val_two]; show n.val = n.val * 1 + 0; omega)]
  show shapeCast _ x0 _ (ix1 n) * scaleOf (F := Ideal) _ _ = _
  rw [flat_x, scaleOf_ideal, funext (flat_a x1), funext (flat_b x2)]

/-- Where every entry is a real number the kernel's result is the reference's. -/
theorem kernel_eq_reference (h0 : ∀ i, ∃ r : ℝ, x0 i = r) (h1 : ∀ i, ∃ r : ℝ, x1 i = r) (h2 : ∀ i, ∃ r : ℝ, x2 i = r) :
    kernelOut x0 x1 x2 = Cert.ReferenceIdeal.Read.val_main_v8 (F := Ideal) x0 x1 x2 := by
  funext i
  obtain ⟨n, z, rfl⟩ : ∃ (n : Fin 16384) (z : Fin 1), i = ix2 n z := ⟨i 0, i 1, eq_ix2 i⟩
  obtain rfl : z = 0 := Subsingleton.elim _ _
  rw [kernel_at, Cert.Proof.Bridge.reference_at,
    bridge' _ _ _ (h0 _) (fun k => h1 _) (fun k => h2 _)]

/-- The precondition read back: every entry of the three arrays is a real number. -/
theorem reals_of_pre (h : Cert.Pre_finite_inputs.fn (F := Ideal) x0 x1 x2 = fun _ => 1#1) :
    (∀ i, ∃ r : ℝ, x0 i = r) ∧ (∀ i, ∃ r : ℝ, x1 i = r) ∧ (∀ i, ∃ r : ℝ, x2 i = r) := by
  have e := congrFun h ix0
  dsimp only [Cert.Pre_finite_inputs.fn, andi] at e
  obtain ⟨e01, e2⟩ := IntOp.andi_eq_one.mp e
  obtain ⟨e0, e1⟩ := IntOp.andi_eq_one.mp e01
  exact ⟨Cert.FiniteReal.real_of_all_finite x0 _ _ _ _ ix0 e0, Cert.FiniteReal.real_of_all_finite x1 _ _ _ _ ix0 e1,
    Cert.FiniteReal.real_of_all_finite x2 _ _ _ _ ix0 e2⟩

end Cert.Proof.IdealValue

end
-- ==== Proof.lean ====
/-
  The five claims. The kernel runs on the sixteen tiles of one SparseCore: tile i fetches words
  1024 i … 1024 i + 1023 of the flattened input and the two ten-word weight vectors, folds the weights into
  the one scalar c = Σ_j b_j · a_{π j} (π the fixed rearrangement of the ten hidden features), multiplies its
  words by c and writes them to the same words of the result. For any float values every fair execution of the
  device's threads ends, faults nowhere, leaves the three arguments as they were and the result at x_n · c in
  every row n: the two kernel frames are that run with the value dropped, at the word-level and at the exact
  reading. The reference multiplies by the first weight, rearranges the hidden features and multiplies by the
  second: row n is Σ_j (x_n · a_{π j}) · b_j. Product distributes over a sum of extended reals only away from
  the infinities; the precondition makes every entry a real number, and there the two rows are equal.
  The exact-reading program is the word-level program's own text, so nothing is owed for the idealization.
-/
import proofs.«212145_g27582279975355_cont_9to1_2260_10_alg».proof.Defs
import proofs.«212145_g27582279975355_cont_9to1_2260_10_alg».proof.Proof.Gen.Kernel
import proofs.«212145_g27582279975355_cont_9to1_2260_10_alg».proof.Proof.Gen.Kernel.Skeleton
import proofs.«212145_g27582279975355_cont_9to1_2260_10_alg».proof.Proof.Gen.KernelIdeal
import proofs.«212145_g27582279975355_cont_9to1_2260_10_alg».proof.Proof.Gen.KernelIdeal.Skeleton
import proofs.«212145_g27582279975355_cont_9to1_2260_10_alg».proof.Proof.Gen.ReferenceIdeal
import proofs.«212145_g27582279975355_cont_9to1_2260_10_alg».proof.Proof.Gen.Pre_finite_inputs
import proofs.«212145_g27582279975355_cont_9to1_2260_10_alg».proof.Proof.Gen.ReferenceIdeal.Run
import proofs.«212145_g27582279975355_cont_9to1_2260_10_alg».proof.Proof.Gen.ReferenceIdeal.Read
import proofs.«212145_g27582279975355_cont_9to1_2260_10_alg».proof.Proof.Bits.Launch
import proofs.«212145_g27582279975355_cont_9to1_2260_10_alg».proof.Proof.Ideal.Launch
import proofs.«212145_g27582279975355_cont_9to1_2260_10_alg».proof.Proof.IdealValue
import Idealize.ShloMosaic.Adequacy
import Idealize.ShloMosaic.Init

noncomputable section

namespace Cert.Proof

open Idealize.ShloMosaic Idealize.SL.Sem

/-- The word-level kernel ends with its arguments unchanged. -/
theorem frame_kernel : Cert.frame_Kernel := fun m ρ _ =>
  (θ_run (Cert.Kernel.defs (F := Bits)) _ _).mono (fun _ h c => ⟨(h c).2.1, (h c).2.2.1, (h c).2.2.2⟩) (BitsSide.run_val (F := Bits) m ρ)

/-- The same program at the exact reading. -/
theorem frame_kernelIdeal : Cert.frame_KernelIdeal := fun m ρ _ =>
  (θ_run (Cert.KernelIdeal.defs (F := Ideal)) _ _).mono (fun _ h c => ⟨(h c).2.1, (h c).2.2.1, (h c).2.2.2⟩) (IdealSide.run_val (F := Ideal) m ρ)

/-- The reference is a straight line of host operations. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the exact reading. -/
theorem preserves : Cert.preserves_Kernel_KernelIdeal := trivial

/-- Both programs end with the result at the kernel's function of the arguments: the kernel by its run, the reference
    because under the precondition every entry is real and the two rows agree. -/
theorem algebraic : Cert.algebraic_KernelIdeal_ReferenceIdeal := by
  intro m ρ m' ρ' hpre hagree
  refine ⟨fun c => IdealValue.kernelOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run (Cert.KernelIdeal.defs (F := Ideal)) _ _).mono (fun _ h c => ⟨(h c).1.trans ?_, (h c).2⟩) (IdealSide.run_val (F := Ideal) m ρ)
    unfold IdealSide.OA IdealSide.outOf
    rw [IdealSide.XA_eq, IdealSide.AA_eq, IdealSide.BA_eq]
    rfl
  · refine (θ_run Cert.ReferenceIdeal.defs _ _).mono (fun _ h c => ⟨?_, (h c).2⟩) (Cert.ReferenceIdeal.Value.run (F := Ideal) m' ρ')
    rw [(h c).1, Cert.ReferenceIdeal.Read.val_main_v8_eq, (hagree c).1, (hagree c).2.1, (hagree c).2.2]
    obtain ⟨h0, h1, h2⟩ := IdealValue.reals_of_pre _ _ _ (hpre c)
    exact (IdealValue.kernel_eq_reference _ _ _ h0 h1 h2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
